-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x1024 : Shape := ⟨3, ![16, 2048, 1024]⟩
abbrev S1024x1024 : Shape := ⟨2, ![1024, 1024]⟩
abbrev S_ : Shape := ⟨0, ![]⟩

class Facts : Prop where
  bcast_S_S16x2048x1024 : S_.BroadcastsInDim S16x2048x1024 (![] : Fin 0 → Fin S16x2048x1024.rank)
  reducesTo_S16x2048x1024_S_d0_1_2 : S16x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S16x2048x1024 .f32) (main_arg1 : FVec F S1024x1024 .f32) (main_arg2 : FVec F S1024x1024 .f32) : IVec S_ 1 :=
  let main_v0 : FVec F S16x2048x1024 .f32 := Host.absf main_arg0
  let main_cst : FVec F S_ .f32 := constant S_ .f32 0x7F800000#32
  let main_v1 : FVec F S16x2048x1024 .f32 := broadcastInDim S16x2048x1024 ![] bcast_S_S16x2048x1024 main_cst
  let main_v2 : IVec S16x2048x1024 1 := cmpf .olt main_v0 main_v1
  let main_c : IVec S_ 1 := constantI S_ 1 1#1
  let main_v3 : IVec S_ 1 := (fun x v => Host.reduce IntOp.andi x v reducesTo_S16x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Kernel.lean ====
abbrev S16x2048x1024 : Shape := ⟨3, ![16, 2048, 1024]⟩
abbrev S1024x1024 : Shape := ⟨2, ![1024, 1024]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩
abbrev S16x1x1024 : Shape := ⟨3, ![16, 1, 1024]⟩
abbrev S1x2048x1024 : Shape := ⟨3, ![1, 2048, 1024]⟩
abbrev S1x1x1024 : Shape := ⟨3, ![1, 1, 1024]⟩
abbrev S2048x1024 : Shape := ⟨2, ![2048, 1024]⟩
abbrev S1024x2048 : Shape := ⟨2, ![1024, 2048]⟩
abbrev S512x2048 : Shape := ⟨2, ![512, 2048]⟩
abbrev S1024 : Shape := ⟨1, ![1024]⟩
abbrev S1x1024 : Shape := ⟨2, ![1, 1024]⟩
abbrev S16x1024 : Shape := ⟨2, ![16, 1024]⟩

abbrev nBuf : Space → Nat
  | .hbm => 12
  | .vmem => 18
  | .smem => 0
  | _ => 0

abbrev bufTy : (tb : Table) → Fin (tcTables nBuf tb) → BufTy
  | .hbm, ⟨0, _⟩ => ⟨S16x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .bf16⟩
  | .hbm, ⟨5, _⟩ => ⟨S1024x1024, .f32⟩
  | .hbm, ⟨6, _⟩ => ⟨S1024x1024, .bf16⟩
  | .hbm, ⟨7, _⟩ => ⟨S16x2048x1024, .bf16⟩
  | .hbm, ⟨8, _⟩ => ⟨S16x2048x1024, .bf16⟩
  | .hbm, ⟨9, _⟩ => ⟨S16x2048x1024, .bf16⟩
  | .hbm, ⟨10, _⟩ => ⟨S16x1x1024, .f32⟩
  | .hbm, ⟨11, _⟩ => ⟨S16x1024, .f32⟩
  | .local _ .vmem, ⟨0, _⟩ => ⟨S1x512x1024, .f32⟩
  | .local _ .vmem, ⟨1, _⟩ => ⟨S1x512x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x2048x1024, .bf16⟩
  | .local _ .vmem, ⟨13, _⟩ => ⟨S1x2048x1024, .bf16⟩
  | .local _ .vmem, ⟨14, _⟩ => ⟨S1x2048x1024, .bf16⟩
  | .local _ .vmem, ⟨15, _⟩ => ⟨S1x2048x1024, .bf16⟩
  | .local _ .vmem, ⟨16, _⟩ => ⟨S1x1x1024, .f32⟩
  | .local _ .vmem, ⟨17, _⟩ => ⟨S1x1x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![16, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  transposes_S1024x1024_S1024x1024_1_0 : S1024x1024.Transposes [1, 0] S1024x1024
  bitsLt_bf16_f32 : FTy.bits .bf16 < FTy.bits .f32
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  reduces_S512x1024_S512 : S512x1024.Reduces [1] S512
  shapeCasts_S512_S512x1 : S512.ShapeCasts S512x1
  broadcasts_S512x1_S512x1024 : S512x1.Broadcasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S512x1024_S1x512x1024 : S512x1024.ShapeCasts S1x512x1024
  packedbf16_S1x512x1024_S1x512x1024_0_0_0 : (Rect.unit (s := S1x512x1024) ![0, 0, 0] S1x512x1024.size inb_S1x512x1024_S1x512x1024_0_0_0).PackedRows (EltTy.packing .bf16)
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  transposes_S2048x1024_p1_0_S1024x2048 : S2048x1024.Transposes [1, 0] S1024x2048
  reduces_S512x2048_S512 : S512x2048.Reduces [1] S512
  broadcasts_S512x1_S512x2048 : S512x1.Broadcasts S512x2048
  reduces_S512x1024_S1024 : S512x1024.Reduces [0] S1024
  shapeCasts_S1024_S1x1024 : S1024.ShapeCasts S1x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1x1024 : S1x1x1024.ShapeCasts S1x1x1024
  shapeCasts_S1x1024_S1x1x1024 : S1x1024.ShapeCasts S1x1x1024
  shapeCasts_S16x1x1024_S16x1024 : S16x1x1024.ShapeCasts S16x1024
  dot_S512x1024_S1024x1024_S512x1024_1_0_0_1_n_n_wf : DotDims.WF S512x1024 S1024x1024 S512x1024 [1] [0] [0] [1] [] []
  dot_S512x1024_S1024x2048_S512x2048_1_0_0_1_n_n_wf : DotDims.WF S512x1024 S1024x2048 S512x2048 [1] [0] [0] [1] [] []
  dot_S512x2048_S2048x1024_S512x1024_1_0_0_1_n_n_wf : DotDims.WF S512x2048 S2048x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S16x2048x1024.size a
  hwx0_0 : ∀ i : grid0.Coords, EltTy.bits .f32 = 32 ∨ (Rect.block (s := S16x2048x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1024.size a ≤ S16x2048x1024.size a
  hwx0_3 : ∀ i : grid0.Coords, EltTy.bits .bf16 = 32 ∨ (Rect.block (s := S16x2048x1024) S1x512x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x1024.size a ≤ S16x2048x1024.size a
  hwx0_4 : ∀ i : grid0.Coords, EltTy.bits .bf16 = 32 ∨ (Rect.block (s := S16x2048x1024) S1x512x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x1024.size a ≤ S16x2048x1024.size a
  hwx0_5 : ∀ i : grid0.Coords, EltTy.bits .bf16 = 32 ∨ (Rect.block (s := S16x2048x1024) S1x512x1024.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S16x2048x1024.size a
  hwx1_0 : ∀ i : grid1.Coords, EltTy.bits .bf16 = 32 ∨ (Rect.block (s := S16x2048x1024) S1x512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x1024.size a ≤ S16x2048x1024.size a
  hwx1_1 : ∀ i : grid1.Coords, EltTy.bits .bf16 = 32 ∨ (Rect.block (s := S16x2048x1024) S1x2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x1024.size a ≤ S16x2048x1024.size a
  hwx1_2 : ∀ i : grid1.Coords, EltTy.bits .bf16 = 32 ∨ (Rect.block (s := S16x2048x1024) S1x2048x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x1024.size a ≤ S16x1x1024.size a
  hwx1_3 : ∀ i : grid1.Coords, EltTy.bits .f32 = 32 ∨ (Rect.block (s := S16x1x1024) S1x1x1024.size (cc1_transform_3 i) (hinb1_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4_0) S1x512x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_1) S1x512x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_2) S1x512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v4_1) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4_2) S1x2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4_0) S1x2048x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1x1x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S16x2048x1024 : Shape := ⟨3, ![16, 2048, 1024]⟩
abbrev S1024x1024 : Shape := ⟨2, ![1024, 1024]⟩
abbrev S_ : Shape := ⟨0, ![]⟩
abbrev S16x2048 : Shape := ⟨2, ![16, 2048]⟩
abbrev S16x2048x1 : Shape := ⟨3, ![16, 2048, 1]⟩
abbrev S16x2048x2048 : Shape := ⟨3, ![16, 2048, 2048]⟩
abbrev S16x1024 : Shape := ⟨2, ![16, 1024]⟩

abbrev nBuf : Space → Nat
  | .hbm => 39
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024x1024, .f32⟩
  | .hbm, ⟨2, _⟩ => ⟨S1024x1024, .f32⟩
  | .hbm, ⟨3, _⟩ => ⟨S16x2048x1024, .f32⟩
  | .hbm, ⟨4, _⟩ => ⟨S_, .f32⟩
  | .hbm, ⟨5, _⟩ => ⟨S16x2048, .f32⟩
  | .hbm, ⟨6, _⟩ => ⟨S16x2048x1, .f32⟩
  | .hbm, ⟨7, _⟩ => ⟨S16x2048x1, .f32⟩
  | .hbm, ⟨8, _⟩ => ⟨S_, .f32⟩
  | .hbm, ⟨9, _⟩ => ⟨S16x2048x1, .f32⟩
  | .hbm, ⟨10, _⟩ => ⟨S16x2048x1, .f32⟩
  | .hbm, ⟨11, _⟩ => ⟨S16x2048x1024, .f32⟩
  | .hbm, ⟨12, _⟩ => ⟨S16x2048x1024, .f32⟩
  | .hbm, ⟨13, _⟩ => ⟨S16x2048x1024, .f32⟩
  | .hbm, ⟨14, _⟩ => ⟨S16x2048x1024, .f32⟩
  | .hbm, ⟨15, _⟩ => ⟨S16x2048x2048, .f32⟩
  | .hbm, ⟨16, _⟩ => ⟨S_, .f32⟩
  | .hbm, ⟨17, _⟩ => ⟨S16x2048x2048, .f32⟩
  | .hbm, ⟨18, _⟩ => ⟨S16x2048x2048, .f32⟩
  | .hbm, ⟨19, _⟩ => ⟨S_, .f32⟩
  | .hbm, ⟨20, _⟩ => ⟨S16x2048, .f32⟩
  | .hbm, ⟨21, _⟩ => ⟨S_, .f32⟩
  | .hbm, ⟨22, _⟩ => ⟨S16x2048, .f32⟩
  | .hbm, ⟨23, _⟩ => ⟨S16x2048, .f32⟩
  | .hbm, ⟨24, _⟩ => ⟨S16x2048x1, .f32⟩
  | .hbm, ⟨25, _⟩ => ⟨S16x2048x2048, .f32⟩
  | .hbm, ⟨26, _⟩ => ⟨S16x2048x2048, .f32⟩
  | .hbm, ⟨27, _⟩ => ⟨S16x2048x2048, .f32⟩
  | .hbm, ⟨28, _⟩ => ⟨S_, .f32⟩
  | .hbm, ⟨29, _⟩ => ⟨S16x2048, .f32⟩
  | .hbm, ⟨30, _⟩ => ⟨S16x2048x1, .f32⟩
  | .hbm, ⟨31, _⟩ => ⟨S16x2048x2048, .f32⟩
  | .hbm, ⟨32, _⟩ => ⟨S16x2048x2048, .f32⟩
  | .hbm, ⟨33, _⟩ => ⟨S16x2048x1024, .f32⟩
  | .hbm, ⟨34, _⟩ => ⟨S_, .f32⟩
  | .hbm, ⟨35, _⟩ => ⟨S16x1024, .f32⟩
  | .hbm, ⟨36, _⟩ => ⟨S_, .f32⟩
  | .hbm, ⟨37, _⟩ => ⟨S16x1024, .f32⟩
  | .hbm, ⟨38, _⟩ => ⟨S16x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]

class Facts₀ : Prop where
  reducesTo_S16x2048x1024_S16x2048_d2 : S16x2048x1024.ReducesTo [2] S16x2048
  h_S_ : 0 < S_.numel
  bcast_S16x2048_S16x2048x1_0_1 : S16x2048.BroadcastsInDim S16x2048x1 (![0, 1] : Fin 2 → Fin S16x2048x1.rank)
  bcast_S_S16x2048x1 : S_.BroadcastsInDim S16x2048x1 (![] : Fin 0 → Fin S16x2048x1.rank)
  bcast_S16x2048x1_S16x2048x1024_0_1_2 : S16x2048x1.BroadcastsInDim S16x2048x1024 (![0, 1, 2] : Fin 3 → Fin S16x2048x1024.rank)
  bcast_S_S16x2048x2048 : S_.BroadcastsInDim S16x2048x2048 (![] : Fin 0 → Fin S16x2048x2048.rank)
  reducesTo_S16x2048x2048_S16x2048_d2 : S16x2048x2048.ReducesTo [2] S16x2048
  bcast_S_S16x2048 : S_.BroadcastsInDim S16x2048 (![] : Fin 0 → Fin S16x2048.rank)
  bcast_S16x2048x1_S16x2048x2048_0_1_2 : S16x2048x1.BroadcastsInDim S16x2048x2048 (![0, 1, 2] : Fin 3 → Fin S16x2048x2048.rank)
  reducesTo_S16x2048x1024_S16x1024_d1 : S16x2048x1024.ReducesTo [1] S16x1024
  bcast_S_S16x1024 : S_.BroadcastsInDim S16x1024 (![] : Fin 0 → Fin S16x1024.rank)
  dot_S16x2048x1024_S1024x1024_S16x2048x1024_2_1_01_0_n_n_wf : DotDims.WF S16x2048x1024 S1024x1024 S16x2048x1024 [2] [1] [0, 1] [0] [] []
  dot_S16x2048x1024_S16x2048x1024_S16x2048x2048_2_2_1_1_0_0_wf : DotDims.WF S16x2048x1024 S16x2048x1024 S16x2048x2048 [2] [2] [1] [1] [0] [0]
  dot_S16x2048x2048_S16x2048x1024_S16x2048x1024_2_1_1_2_0_0_wf : DotDims.WF S16x2048x2048 S16x2048x1024 S16x2048x1024 [2] [1] [1] [2] [0] [0]

variable [Facts₀]

def dot_S16x2048x1024_S1024x1024_S16x2048x1024_2_1_01_0_n_n : DotDims S16x2048x1024 S1024x1024 S16x2048x1024 where
  lhsContracting := [2]
  rhsContracting := [1]
  lhsNonContracting := [0, 1]
  rhsNonContracting := [0]
  lhsBatch := []
  rhsBatch := []
  wf := dot_S16x2048x1024_S1024x1024_S16x2048x1024_2_1_01_0_n_n_wf
def dot_S16x2048x1024_S16x2048x1024_S16x2048x2048_2_2_1_1_0_0 : DotDims S16x2048x1024 S16x2048x1024 S16x2048x2048 where
  lhsContracting := [2]
  rhsContracting := [2]
  lhsNonContracting := [1]
  rhsNonContracting := [1]
  lhsBatch := [0]
  rhsBatch := [0]
  wf := dot_S16x2048x1024_S16x2048x1024_S16x2048x2048_2_2_1_1_0_0_wf
def dot_S16x2048x2048_S16x2048x1024_S16x2048x1024_2_1_1_2_0_0 : DotDims S16x2048x2048 S16x2048x1024 S16x2048x1024 where
  lhsContracting := [2]
  rhsContracting := [1]
  lhsNonContracting := [1]
  rhsNonContracting := [2]
  lhsBatch := [0]
  rhsBatch := [0]
  wf := dot_S16x2048x2048_S16x2048x1024_S16x2048x1024_2_1_1_2_0_0_wf

class Facts : Prop extends Facts₀ where

variable [Facts]
-- ==== Proof.LibReals.lean ====
/-
  Extended reals that are real numbers. At the ideal float values every float is an extended real; a
  value is FINITE when it is the image of a real number. This module collects, with no reference to any
  program: the predicate "every entry of a family is a real" and its closure under the exact operations
  (sum, product, difference, maximum, finite sums, division by a nonzero real, reciprocal square root
  of a positive real); the coercion of a finite real sum; and the identity between the two textbook
  forms of the variance of a finite family, (1/N) Σ (xᵢ − μ)² = (1/N) Σ xᵢ² − μ² with μ = (1/N) Σ xᵢ,
  first over the reals and then over real-valued extended reals, where each quotient is the ideal
  division and each sum may carry a leading zero summand; the variance is a real and is not negative.
-/
import Idealize.ShloMosaic.PureOps.Ideal

noncomputable section

namespace Cert.Reals

open Idealize.ShloMosaic
open scoped BigOperators

/-- An extended real that is (the image of) a real number. -/
def IsRealS (x : EReal) : Prop := ∃ r : ℝ, x = (r : EReal)

/-- Every entry of a family of extended reals is a real number. -/
def IsReal {ι : Type*} (f : ι → EReal) : Prop := ∀ i, ∃ r : ℝ, f i = (r : EReal)

/-- A family is real exactly when each entry is. -/
theorem isReal_iff {ι : Type*} (f : ι → EReal) : IsReal f ↔ ∀ i, IsRealS (f i) := Iff.rfl

/-- An entry of a real family is a real. -/
theorem IsReal.apply {ι : Type*} {f : ι → EReal} (h : IsReal f) (i : ι) : IsRealS (f i) := h i

/-- A real family is the coercion of a family of reals. -/
theorem IsReal.exists_eq {ι : Type*} {f : ι → EReal} (h : IsReal f) : ∃ r : ι → ℝ, f = fun i => (r i : EReal) := by
  choose r hr using h
  exact ⟨r, funext hr⟩

/-- The coercion of a family of reals is a real family. -/
theorem isReal_coe {ι : Type*} (r : ι → ℝ) : IsReal (fun i => (r i : EReal)) := fun i => ⟨r i, rfl⟩

/-- Re-indexing a real family gives a real family. -/
theorem IsReal.comp {ι κ : Type*} {f : ι → EReal} (h : IsReal f) (g : κ → ι) : IsReal (fun k => f (g k)) :=
  fun k => h (g k)

/-- A real number is a real. -/
theorem isRealS_coe (r : ℝ) : IsRealS (r : EReal) := ⟨r, rfl⟩

/-- Zero is a real. -/
theorem isRealS_zero : IsRealS 0 := ⟨0, rfl⟩

/-- One is a real. -/
theorem isRealS_one : IsRealS 1 := ⟨1, rfl⟩

/-- A real is not the upper infinity. -/
theorem IsRealS.ne_top {x : EReal} (h : IsRealS x) : x ≠ ⊤ := by
  obtain ⟨r, rfl⟩ := h; exact EReal.coe_ne_top r

/-- A real is not the lower infinity. -/
theorem IsRealS.ne_bot {x : EReal} (h : IsRealS x) : x ≠ ⊥ := by
  obtain ⟨r, rfl⟩ := h; exact EReal.coe_ne_bot r

/-- An extended real that is neither infinity is a real. -/
theorem isRealS_of_ne {x : EReal} (ht : x ≠ ⊤) (hb : x ≠ ⊥) : IsRealS x := by
  induction x using EReal.rec with
  | bot => exact absurd rfl hb
  | top => exact absurd rfl ht
  | coe r => exact ⟨r, rfl⟩

/-- The sum of two reals is a real. -/
theorem IsRealS.add {x y : EReal} (hx : IsRealS x) (hy : IsRealS y) : IsRealS (x + y) := by
  obtain ⟨a, rfl⟩ := hx; obtain ⟨b, rfl⟩ := hy
  exact ⟨a + b, (EReal.coe_add a b).symm⟩

/-- The product of two reals is a real. -/
theorem IsRealS.mul {x y : EReal} (hx : IsRealS x) (hy : IsRealS y) : IsRealS (x * y) := by
  obtain ⟨a, rfl⟩ := hx; obtain ⟨b, rfl⟩ := hy
  exact ⟨a * b, (EReal.coe_mul a b).symm⟩

/-- The negation of a real is a real. -/
theorem IsRealS.neg {x : EReal} (hx : IsRealS x) : IsRealS (-x) := by
  obtain ⟨a, rfl⟩ := hx
  exact ⟨-a, (EReal.coe_neg a).symm⟩

/-- The difference of two reals (the extended reals' subtraction, which the ideal values' subtraction is)
    is a real. -/
theorem IsRealS.sub {x y : EReal} (hx : IsRealS x) (hy : IsRealS y) : IsRealS (x - y) := by
  obtain ⟨a, rfl⟩ := hx; obtain ⟨b, rfl⟩ := hy
  exact ⟨a - b, (EReal.coe_sub a b).symm⟩

/-- The maximum of two reals is a real. -/
theorem IsRealS.max {x y : EReal} (hx : IsRealS x) (hy : IsRealS y) : IsRealS (max x y) := by
  rcases max_choice x y with h | h <;> rw [h] <;> assumption

/-- The minimum of two reals is a real. -/
theorem IsRealS.min {x y : EReal} (hx : IsRealS x) (hy : IsRealS y) : IsRealS (min x y) := by
  rcases min_choice x y with h | h <;> rw [h] <;> assumption

/-- The coercion of a finite sum of reals is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The same over a whole finite type. -/
theorem coe_fintype_sum {ι : Type*} [Fintype ι] (f : ι → ℝ) :
    ((∑ i, f i : ℝ) : EReal) = ∑ i, (f i : EReal) := coe_finset_sum Finset.univ f

/-- A finite sum of reals is a real. -/
theorem isRealS_sum {ι : Type*} (s : Finset ι) (f : ι → EReal) (h : ∀ i ∈ s, IsRealS (f i)) :
    IsRealS (∑ i ∈ s, f i) := by
  classical
  induction s using Finset.induction_on with
  | empty => simpa using isRealS_zero
  | insert a s ha ih =>
    rw [Finset.sum_insert ha]
    exact (h a (Finset.mem_insert_self a s)).add (ih fun i hi => h i (Finset.mem_insert_of_mem hi))

/-- A sum over a finite set of entries of a real family is a real. -/
theorem IsReal.sum {ι : Type*} {f : ι → EReal} (h : IsReal f) (s : Finset ι) : IsRealS (∑ i ∈ s, f i) :=
  isRealS_sum s f fun i _ => h i

/-- A sum over a whole finite type of entries of a real family is a real. -/
theorem IsReal.sum_univ {ι : Type*} [Fintype ι] {f : ι → EReal} (h : IsReal f) : IsRealS (∑ i, f i) :=
  h.sum Finset.univ

/-- A finite sum of extended reals that are not negative is not negative. -/
theorem sum_nonneg {ι : Type*} (s : Finset ι) (f : ι → EReal) (h : ∀ i ∈ s, 0 ≤ f i) : 0 ≤ ∑ i ∈ s, f i :=
  Finset.sum_nonneg h

/-- The ideal quotient of two reals, the divisor not zero, is the real quotient. -/
theorem div_coe_coe (a : ℝ) {n : ℝ} (hn : n ≠ 0) : Ideal.div (a : EReal) (n : EReal) = ((a / n : ℝ) : EReal) := by
  rw [Ideal.div_coe hn, ← EReal.coe_mul, mul_one_div]

/-- The ideal quotient of a real by a nonzero real number is a real. -/
theorem IsRealS.div_coe {x : EReal} (hx : IsRealS x) {n : ℝ} (hn : n ≠ 0) : IsRealS (Ideal.div x (n : EReal)) := by
  obtain ⟨a, rfl⟩ := hx
  exact ⟨a / n, div_coe_coe a hn⟩

/-- The ideal quotient of a real by a real that is not zero is a real. -/
theorem IsRealS.div {x y : EReal} (hx : IsRealS x) (hy : IsRealS y) (hy0 : y ≠ 0) : IsRealS (Ideal.div x y) := by
  obtain ⟨n, rfl⟩ := hy
  exact hx.div_coe (by rintro rfl; exact hy0 rfl)

/-- The ideal quotient of a real that is not negative by a positive real is not negative. -/
theorem div_coe_nonneg {a n : ℝ} (ha : 0 ≤ a) (hn : 0 < n) : (0 : EReal) ≤ Ideal.div (a : EReal) (n : EReal) := by
  rw [div_coe_coe a hn.ne']
  exact EReal.coe_nonneg.mpr (div_nonneg ha hn.le)

/-- The ideal reciprocal square root of a positive real is the real reciprocal of its square root. -/
theorem rsqrt_coe_pos {r : ℝ} (hr : 0 < r) : Ideal.rsqrt (r : EReal) = (((Real.sqrt r)⁻¹ : ℝ) : EReal) := by
  rw [Ideal.rsqrt_coe, if_neg (not_lt.mpr hr.le), if_neg hr.ne']

/-- The ideal reciprocal square root of a positive real is a real. -/
theorem IsRealS.rsqrt {x : EReal} (hx : IsRealS x) (hpos : 0 < x) : IsRealS (Ideal.rsqrt x) := by
  obtain ⟨r, rfl⟩ := hx
  exact ⟨_, rsqrt_coe_pos (EReal.coe_pos.mp hpos)⟩

/-- The host's reciprocal square root at the ideal values is the same function. -/
theorem IsRealS.hostRsqrt {φ : FTy} {x : Ideal φ} (hx : IsRealS x) (hpos : (0 : EReal) < x) :
    IsRealS (FloatOps.hostUnary (F := Ideal) .rsqrt x) := by
  rw [Ideal.hostUnary_rsqrt_def]; exact hx.rsqrt hpos

/-- The ideal reciprocal square root of a positive real is positive. -/
theorem rsqrt_pos {x : EReal} (hx : IsRealS x) (hpos : 0 < x) : 0 < Ideal.rsqrt x := by
  obtain ⟨r, rfl⟩ := hx
  have hr : 0 < r := EReal.coe_pos.mp hpos
  rw [rsqrt_coe_pos hr]
  exact EReal.coe_pos.mpr (inv_pos.mpr (Real.sqrt_pos.mpr hr))

/-- An extended real that is not negative plus a positive one is positive. -/
theorem add_pos_of_nonneg_of_pos {v e : EReal} (hv : 0 ≤ v) (he : 0 < e) : 0 < v + e := by
  calc (0 : EReal) < e := he
    _ = 0 + e := (zero_add e).symm
    _ ≤ v + e := add_le_add hv le_rfl

/-- An extended real that is not negative, plus one, is at least one. -/
theorem one_le_add_one_of_nonneg {c : EReal} (hc : 0 ≤ c) : 1 ≤ c + 1 := by
  calc (1 : EReal) = 0 + 1 := (zero_add 1).symm
    _ ≤ c + 1 := add_le_add hc le_rfl

/-- An extended real that is at least one is positive. -/
theorem pos_of_one_le {x : EReal} (h : 1 ≤ x) : 0 < x := lt_of_lt_of_le zero_lt_one h

/-! ## The variance identity -/

/-- THE VARIANCE IDENTITY over the reals: for a finite family of N reals, N not zero, the mean of the
    squared deviations from the mean is the mean of the squares minus the square of the mean. -/
theorem variance_real {ι : Type*} [Fintype ι] (f : ι → ℝ) (N : ℝ) (hN : N = Fintype.card ι) (hN0 : N ≠ 0) :
    (∑ i, (f i - (∑ j, f j) / N) * (f i - (∑ j, f j) / N)) / N
      = (∑ i, f i * f i) / N - ((∑ j, f j) / N) * ((∑ j, f j) / N) := by
  have h1 : ∑ i, (f i - (∑ j, f j) / N) * (f i - (∑ j, f j) / N)
      = (∑ i, f i * f i) - 2 * ((∑ j, f j) / N) * (∑ j, f j) + N * (((∑ j, f j) / N) * ((∑ j, f j) / N)) := by
    have h2 : ∀ i, (f i - (∑ j, f j) / N) * (f i - (∑ j, f j) / N)
        = f i * f i - 2 * ((∑ j, f j) / N) * f i + ((∑ j, f j) / N) * ((∑ j, f j) / N) := fun i => by ring
    simp only [h2]
    rw [Finset.sum_add_distrib, Finset.sum_sub_distrib, ← Finset.mul_sum, Finset.sum_const, Finset.card_univ,
      nsmul_eq_mul, ← hN]
  rw [h1]
  field_simp
  ring

/-- The mean of the squared deviations is not negative. -/
theorem variance_real_nonneg {ι : Type*} [Fintype ι] (f : ι → ℝ) (N : ℝ) (hN0 : 0 < N) :
    0 ≤ (∑ i, (f i - (∑ j, f j) / N) * (f i - (∑ j, f j) / N)) / N :=
  div_nonneg (Finset.sum_nonneg fun i _ => mul_self_nonneg _) hN0.le

/-- The variance of a family of reals, in the deviation form. -/
def varR {ι : Type*} [Fintype ι] (f : ι → ℝ) (N : ℝ) : ℝ :=
  (∑ i, (f i - (∑ j, f j) / N) * (f i - (∑ j, f j) / N)) / N

/-- It is not negative. -/
theorem varR_nonneg {ι : Type*} [Fintype ι] (f : ι → ℝ) {N : ℝ} (hN0 : 0 < N) : 0 ≤ varR f N :=
  variance_real_nonneg f N hN0

/-- The deviation form of the variance over real-valued extended reals, each quotient the ideal division
    and each difference the extended reals' subtraction, is the coercion of the real variance. -/
theorem variance_dev_coe {ι : Type*} [Fintype ι] (r : ι → ℝ) {N : ℝ} (hN0 : N ≠ 0) :
    Ideal.div (∑ i, ((r i : EReal) - Ideal.div (∑ j, (r j : EReal)) (N : EReal))
        * ((r i : EReal) - Ideal.div (∑ j, (r j : EReal)) (N : EReal))) (N : EReal)
      = ((varR r N : ℝ) : EReal) := by
  rw [← coe_fintype_sum, div_coe_coe _ hN0]
  simp only [← EReal.coe_sub, ← EReal.coe_mul]
  rw [← coe_fintype_sum, div_coe_coe _ hN0]
  rfl

/-- The moment form of the variance over real-valued extended reals is the coercion of the real variance,
    when the divisor is the number of entries. -/
theorem variance_mom_coe {ι : Type*} [Fintype ι] (r : ι → ℝ) {N : ℝ} (hN : N = Fintype.card ι) (hN0 : N ≠ 0) :
    Ideal.div (∑ i, (r i : EReal) * (r i : EReal)) (N : EReal)
        - Ideal.div (∑ j, (r j : EReal)) (N : EReal) * Ideal.div (∑ j, (r j : EReal)) (N : EReal)
      = ((varR r N : ℝ) : EReal) := by
  simp only [← EReal.coe_mul]
  rw [← coe_fintype_sum, ← coe_fintype_sum, div_coe_coe _ hN0, div_coe_coe _ hN0, ← EReal.coe_mul, ← EReal.coe_sub,
    varR, variance_real r N hN hN0]

/-- THE VARIANCE IDENTITY over real-valued extended reals: the deviation form (the mean of the squared
    differences from the mean) is the moment form (the mean of the squares minus the squared mean); every
    quotient is the ideal division by the real N, the number of entries. -/
theorem variance_ereal {ι : Type*} [Fintype ι] (x : ι → EReal) (hx : IsReal x) {N : ℝ} (hN : N = Fintype.card ι)
    (hN0 : N ≠ 0) :
    Ideal.div (∑ i, (x i - Ideal.div (∑ j, x j) (N : EReal)) * (x i - Ideal.div (∑ j, x j) (N : EReal))) (N : EReal)
      = Ideal.div (∑ i, x i * x i) (N : EReal) - Ideal.div (∑ j, x j) (N : EReal) * Ideal.div (∑ j, x j) (N : EReal) := by
  obtain ⟨r, rfl⟩ := hx.exists_eq
  rw [variance_dev_coe r hN0, variance_mom_coe r hN hN0]

/-- The same with every sum carrying the leading zero summand of a host reduction. -/
theorem variance_ereal_zero_add {ι : Type*} [Fintype ι] (x : ι → EReal) (hx : IsReal x) {N : ℝ}
    (hN : N = Fintype.card ι) (hN0 : N ≠ 0) :
    Ideal.div (0 + ∑ i, (x i - Ideal.div (0 + ∑ j, x j) (N : EReal)) * (x i - Ideal.div (0 + ∑ j, x j) (N : EReal)))
        (N : EReal)
      = Ideal.div (0 + ∑ i, x i * x i) (N : EReal)
          - Ideal.div (0 + ∑ j, x j) (N : EReal) * Ideal.div (0 + ∑ j, x j) (N : EReal) := by
  simp only [zero_add]
  exact variance_ereal x hx hN hN0

/-- The deviation form with the host's leading zeros is the moment form without them. -/
theorem variance_ereal_zero_add_left {ι : Type*} [Fintype ι] (x : ι → EReal) (hx : IsReal x) {N : ℝ}
    (hN : N = Fintype.card ι) (hN0 : N ≠ 0) :
    Ideal.div (0 + ∑ i, (x i - Ideal.div (0 + ∑ j, x j) (N : EReal)) * (x i - Ideal.div (0 + ∑ j, x j) (N : EReal)))
        (N : EReal)
      = Ideal.div (∑ i, x i * x i) (N : EReal) - Ideal.div (∑ j, x j) (N : EReal) * Ideal.div (∑ j, x j) (N : EReal) := by
  simp only [zero_add]
  exact variance_ereal x hx hN hN0

/-- The deviation form of the variance of a real family is a real that is not negative (N positive). -/
theorem variance_dev_real_nonneg {ι : Type*} [Fintype ι] (x : ι → EReal) (hx : IsReal x) {N : ℝ} (hN0 : 0 < N) :
    ∃ v : ℝ, 0 ≤ v ∧
      Ideal.div (∑ i, (x i - Ideal.div (∑ j, x j) (N : EReal)) * (x i - Ideal.div (∑ j, x j) (N : EReal))) (N : EReal)
        = (v : EReal) := by
  obtain ⟨r, rfl⟩ := hx.exists_eq
  exact ⟨varR r N, varR_nonneg r hN0, variance_dev_coe r hN0.ne'⟩

/-- The moment form likewise, when N is the number of entries. -/
theorem variance_mom_real_nonneg {ι : Type*} [Fintype ι] (x : ι → EReal) (hx : IsReal x) {N : ℝ}
    (hN : N = Fintype.card ι) (hN0 : 0 < N) :
    ∃ v : ℝ, 0 ≤ v ∧
      Ideal.div (∑ i, x i * x i) (N : EReal) - Ideal.div (∑ j, x j) (N : EReal) * Ideal.div (∑ j, x j) (N : EReal)
        = (v : EReal) := by
  obtain ⟨r, rfl⟩ := hx.exists_eq
  exact ⟨varR r N, varR_nonneg r hN0, variance_mom_coe r hN hN0.ne'⟩

/-- A real that is not negative, as the two facts a later step uses. -/
theorem isRealS_and_nonneg_of_exists {y : EReal} (h : ∃ v : ℝ, 0 ≤ v ∧ y = (v : EReal)) : IsRealS y ∧ 0 ≤ y := by
  obtain ⟨v, hv, rfl⟩ := h
  exact ⟨⟨v, rfl⟩, EReal.coe_nonneg.mpr hv⟩

end Cert.Reals

end
-- ==== Proof.LibBlockSumGen.lean ====
/-
  A sum over n = K · B indices is the sum, over the K consecutive blocks of B indices taken in order from zero,
  of the sums inside each block — in any commutative additive monoid, for any K and B. (A contraction that a
  kernel accumulates block by block over a grid axis equals the whole contraction.)
-/
import Mathlib.Algebra.BigOperators.Fin
import Mathlib.Logic.Equiv.Fin.Basic

open scoped BigOperators

namespace Cert.LibBlockSumGen

/-- Index `l` of block `k` is below `K · B`. -/
theorem block_index_lt {K B : ℕ} (k : Fin K) (l : Fin B) : B * k.val + l.val < K * B := by
  have hk := k.isLt
  have hl := l.isLt
  calc B * k.val + l.val < B * k.val + B := by omega
    _ = B * (k.val + 1) := (Nat.mul_succ _ _).symm
    _ ≤ B * K := Nat.mul_le_mul_left _ hk
    _ = K * B := Nat.mul_comm _ _

/-- A sum over `n = K · B` indices as `K` block sums of `B` terms: block `k` holds the indices `B·k, …, B·k + B − 1`. -/
theorem sum_blocks {M : Type*} [AddCommMonoid M] {n K B : ℕ} (h : n = K * B) (f : Fin n → M) :
    ∑ p : Fin n, f p = ∑ k : Fin K, ∑ l : Fin B, f ⟨B * k.val + l.val, h ▸ block_index_lt k l⟩ := by
  subst h
  rw [← Fintype.sum_prod_type' (fun (k : Fin K) (l : Fin B) => f ⟨B * k.val + l.val, block_index_lt k l⟩)]
  refine Fintype.sum_equiv (finProdFinEquiv (m := K) (n := B)).symm _ _ (fun p => ?_)
  congr 1
  apply Fin.ext
  simp only [finProdFinEquiv, Equiv.coe_fn_symm_mk, Fin.coe_divNat, Fin.coe_modNat]
  exact (Nat.div_add_mod p.val B).symm

end Cert.LibBlockSumGen
-- ==== Proof.Consts.lean ====
/-
  The float literals the two programs spell, as the extended reals their patterns denote: the clamp 1e-12 of the
  norm is a positive real, the score scale 2^-5 a real, the maximum's start value the lower infinity, and the
  mean's 2048 and 2^-11 are reciprocal reals.
-/
import Idealize.ShloMosaic.PureOps.Ideal
import Idealize.ShloMosaic.PureOps.Ideal.Laws

noncomputable section

namespace Cert.Consts

open Idealize.ShloMosaic

/-- The norm's clamp (the f32 nearest 1e-12) denotes a positive real. -/
theorem ofBits_eps : ∃ r : ℝ, 0 < r ∧ Ideal.ofBits .f32 0x2B8CBCCC#32 = ((r : ℝ) : EReal) := by
  refine ⟨_, ?_, by simp [Ideal.ofBits, Ideal.ieee, -EReal.coe_mul]; rfl⟩
  norm_num

/-- The score scale 1024^(-1/2) = 2^-5 denotes a real. -/
theorem ofBits_scale : Ideal.ofBits .f32 0x3D000000#32 = (((1 : ℝ) / 32 : ℝ) : EReal) := by
  simp [Ideal.ofBits, Ideal.ieee, -EReal.coe_mul]; norm_num

/-- The start value of a row maximum denotes the lower infinity. -/
theorem ofBits_ninf : Ideal.ofBits .f32 0xFF800000#32 = (⊥ : EReal) := by
  simp [Ideal.ofBits, Ideal.ieee]

/-- The mean's divisor denotes the real 2048. -/
theorem ofBits_2048 : Ideal.ofBits .f32 0x45000000#32 = ((2048 : ℝ) : EReal) := by
  simp [Ideal.ofBits, Ideal.ieee, -EReal.coe_mul]; norm_num

/-- The kernel's folded reciprocal 2^-11 denotes the real 1/2048. -/
theorem ofBits_inv2048 : Ideal.ofBits .f32 0x3A000000#32 = (((1 : ℝ) / 2048 : ℝ) : EReal) := by
  simp [Ideal.ofBits, Ideal.ieee, -EReal.coe_mul]; norm_num

end Cert.Consts

end
-- ==== Proof.Spec.lean ====
/-
  The mathematics of the two programs, over the extended reals, with no reference to either program.

  STAGE 1. A row x of features is divided by its clamped Euclidean norm max(sqrt(Σ x²), ε); the normalized
  rows are projected by two weight matrices: q = x̂ · W_qᵀ, k = x̂ · W_kᵀ.

  STAGE 2. Over three arrays Q, K, X (batch × rows × features): the scaled scores s = (Q Kᵀ)·c, their row
  maximum, the exponentials p = exp(s − max), the row sums l = Σ p, and then EITHER the softmax-weighted
  rows Σₘ (p/l)·X (the reference: normalize, then multiply) OR (Σₘ p·X)/l (the kernel: multiply, then
  normalize), summed over the query rows and divided by their number.

  The two agree when Q, K and X are real-valued: p is then a positive real, l a positive real, and a division
  by a nonzero real is a product with its reciprocal, which leaves a finite sum of real products.
-/
import Idealize.ShloMosaic.PureOps.Ideal
import Idealize.ShloMosaic.PureOps.Ideal.Laws
import Idealize.ShloMosaic.Lib.ValueIdx
import Mathlib.Data.Finset.Fold
import proofs.«108182_j58196806861037_2_alg».proof.Proof.LibReals
import proofs.«108182_j58196806861037_2_alg».proof.Proof.LibBlockSumGen
import proofs.«108182_j58196806861037_2_alg».proof.Proof.Consts

noncomputable section

namespace Cert.Attn

open Idealize.ShloMosaic Idealize.ShloMosaic.ValueIdx Cert.Reals
open scoped BigOperators

/-- A rank-3 array of extended reals; a rank-2 one. -/
abbrev Arr3 (a b c : ℕ) : Type := (⟨3, ![a, b, c]⟩ : Shape).Idx → EReal
abbrev Arr2 (a b : ℕ) : Type := (⟨2, ![a, b]⟩ : Shape).Idx → EReal

/-- The norm's clamp, the score scale, the maximum's start value, the row count and its reciprocal, as the
    patterns the programs spell. -/
abbrev eps : EReal := Ideal.ofBits .f32 0x2B8CBCCC#32
abbrev scl : EReal := Ideal.ofBits .f32 0x3D000000#32
abbrev ninf : EReal := Ideal.ofBits .f32 0xFF800000#32
abbrev cnt : EReal := Ideal.ofBits .f32 0x45000000#32
abbrev rcnt : EReal := Ideal.ofBits .f32 0x3A000000#32

/-! ## Stage 1: normalize and project -/

section Stage1
variable {B N E : ℕ} (f : Arr3 B N E)

/-- The clamped Euclidean norm of row (b, n). -/
def den (b : Fin B) (n : Fin N) : EReal :=
  max (Ideal.sqrt (∑ e : Fin E, f (ix3 b n e) * f (ix3 b n e))) eps

/-- The normalized feature (b, n, e). -/
def xn (b : Fin B) (n : Fin N) (e : Fin E) : EReal := Ideal.div (f (ix3 b n e)) (den f b n)

/-- The projection of the normalized row (b, n) on row j of a weight matrix. -/
def proj {J : ℕ} (w : Arr2 J E) (b : Fin B) (n : Fin N) (j : Fin J) : EReal :=
  ∑ e : Fin E, xn f b n e * w (ix2 j e)

/-- The normalized features and a projection as arrays. -/
def xnA : Arr3 B N E := fun i => xn f (i 0) (i 1) (i 2)
def projA {J : ℕ} (w : Arr2 J E) : Arr3 B N J := fun i => proj f w (i 0) (i 1) (i 2)

theorem xnA_apply (b : Fin B) (n : Fin N) (e : Fin E) : xnA f (ix3 b n e) = xn f b n e := rfl
theorem projA_apply {J : ℕ} (w : Arr2 J E) (b : Fin B) (n : Fin N) (j : Fin J) :
    projA f w (ix3 b n j) = proj f w b n j := rfl

/-- A row's clamped norm depends on that row only. -/
theorem den_congr {B' N' : ℕ} (g : Arr3 B' N' E) (b : Fin B) (n : Fin N) (b' : Fin B') (n' : Fin N')
    (h : ∀ e, f (ix3 b n e) = g (ix3 b' n' e)) : den f b n = den g b' n' := by
  unfold den; simp only [h]

theorem xn_congr {B' N' : ℕ} (g : Arr3 B' N' E) (b : Fin B) (n : Fin N) (b' : Fin B') (n' : Fin N')
    (h : ∀ e, f (ix3 b n e) = g (ix3 b' n' e)) (e : Fin E) : xn f b n e = xn g b' n' e := by
  unfold xn; rw [den_congr f g b n b' n' h, h e]

theorem proj_congr {B' N' J : ℕ} (g : Arr3 B' N' E) (w : Arr2 J E) (b : Fin B) (n : Fin N) (b' : Fin B') (n' : Fin N')
    (h : ∀ e, f (ix3 b n e) = g (ix3 b' n' e)) (j : Fin J) : proj f w b n j = proj g w b' n' j := by
  unfold proj; simp only [xn_congr f g b n b' n' h]

/-- The clamped norm of a real row is a positive real. -/
theorem den_real (hf : IsReal f) (b : Fin B) (n : Fin N) : ∃ d : ℝ, 0 < d ∧ den f b n = (d : EReal) := by
  have hrow : ∀ e : Fin E, ∃ r : ℝ, f (ix3 b n e) = (r : EReal) := fun e => hf _
  choose r hr using hrow
  obtain ⟨ε, hε, hεe⟩ := Cert.Consts.ofBits_eps
  refine ⟨max (Real.sqrt (∑ e : Fin E, r e * r e)) ε, lt_max_of_lt_right hε, ?_⟩
  unfold den
  have hs : (∑ e : Fin E, f (ix3 b n e) * f (ix3 b n e)) = ((∑ e : Fin E, r e * r e : ℝ) : EReal) := by
    rw [coe_fintype_sum]
    exact Finset.sum_congr rfl fun e _ => by rw [hr e, EReal.coe_mul]
  rw [hs, Ideal.sqrt_coe, if_neg (not_lt.mpr (Finset.sum_nonneg fun e _ => mul_self_nonneg (r e)))]
  show max _ (Ideal.ofBits .f32 0x2B8CBCCC#32) = _
  rw [hεe]
  exact (EReal.coe_strictMono.monotone.map_max).symm

/-- The normalized features of a real array are real. -/
theorem xn_real (hf : IsReal f) (b : Fin B) (n : Fin N) (e : Fin E) : IsRealS (xn f b n e) := by
  obtain ⟨d, hd, hde⟩ := den_real f hf b n
  obtain ⟨r, hr⟩ := hf (ix3 b n e)
  unfold xn
  rw [hde, hr]
  exact ⟨_, div_coe_coe r (ne_of_gt hd)⟩

theorem xnA_real (hf : IsReal f) : IsReal (xnA f) := fun i => xn_real f hf (i 0) (i 1) (i 2)

/-- A projection of a real array by a real matrix is real. -/
theorem proj_real {J : ℕ} (w : Arr2 J E) (hf : IsReal f) (hw : IsReal w) (b : Fin B) (n : Fin N) (j : Fin J) :
    IsRealS (proj f w b n j) :=
  isRealS_sum _ _ fun e _ => IsRealS.mul (xn_real f hf b n e) (hw _)

theorem projA_real {J : ℕ} (w : Arr2 J E) (hf : IsReal f) (hw : IsReal w) : IsReal (projA f w) :=
  fun i => proj_real f w hf hw (i 0) (i 1) (i 2)

end Stage1

/-! ## Stage 2: scores, softmax, weighted rows -/

section Stage2
variable {B N M E : ℕ} (Q : Arr3 B N E) (K : Arr3 B M E) (X : Arr3 B M E)

/-- The scaled score of query row n against key row m. -/
def score (b : Fin B) (n : Fin N) (m : Fin M) : EReal := (∑ j : Fin E, Q (ix3 b n j) * K (ix3 b m j)) * scl

/-- The maximum of a query row's scores, from the start value. -/
def rowmax (b : Fin B) (n : Fin N) : EReal :=
  (Finset.univ : Finset (Fin M)).fold max ninf (fun m => score Q K b n m)

/-- The exponential of a score less its row's maximum, and the row's sum of those. -/
def pexp (b : Fin B) (n : Fin N) (m : Fin M) : EReal := Ideal.exp (score Q K b n m - rowmax Q K b n)
def lsum (b : Fin B) (n : Fin N) : EReal := ∑ m : Fin M, pexp Q K b n m

/-- Row n of the output, the kernel's way: the weighted sum of the rows of X, then one division by the row sum. -/
def otile (b : Fin B) (n : Fin N) (e : Fin E) : EReal :=
  Ideal.div (∑ m : Fin M, pexp Q K b n m * X (ix3 b m e)) (lsum Q K b n)

/-- Row n of the output, the reference's way: each weight divided by the row sum, then the weighted sum. -/
def oref (b : Fin B) (n : Fin N) (e : Fin E) : EReal :=
  ∑ m : Fin M, Ideal.div (pexp Q K b n m) (lsum Q K b n) * X (ix3 b m e)

/-- The kernel's row depends on the query row, and on the keys and values of its batch entry, only. -/
theorem otile_congr {B' N' : ℕ} (Q' : Arr3 B' N' E) (K' : Arr3 B' M E) (X' : Arr3 B' M E)
    (b : Fin B) (n : Fin N) (b' : Fin B') (n' : Fin N')
    (hq : ∀ j, Q (ix3 b n j) = Q' (ix3 b' n' j)) (hk : ∀ m j, K (ix3 b m j) = K' (ix3 b' m j))
    (hx : ∀ m e, X (ix3 b m e) = X' (ix3 b' m e)) (e : Fin E) :
    otile Q K X b n e = otile Q' K' X' b' n' e := by
  unfold otile lsum pexp rowmax score
  simp only [hq, hk, hx]

variable (hQ : IsReal Q) (hK : IsReal K) (hX : IsReal X)
include hQ hK in
theorem score_real (b : Fin B) (n : Fin N) (m : Fin M) : IsRealS (score Q K b n m) := by
  unfold score
  refine IsRealS.mul (isRealS_sum _ _ fun j _ => IsRealS.mul (hQ _) (hK _)) ?_
  show IsRealS (Ideal.ofBits .f32 0x3D000000#32)
  rw [Cert.Consts.ofBits_scale]; exact ⟨_, rfl⟩

/-- The maximum over a nonempty row of reals, from the lower infinity, is a real. -/
theorem fold_max_real {n : ℕ} (hn : 0 < n) (g : Fin n → EReal) (hg : ∀ k, IsRealS (g k)) :
    IsRealS ((Finset.univ : Finset (Fin n)).fold max (⊥ : EReal) g) := by
  refine isRealS_of_ne (ne_of_lt ?_) (ne_of_gt ?_)
  · exact (Finset.fold_max_lt _).mpr ⟨bot_lt_top, fun k _ => lt_top_iff_ne_top.mpr (hg k).ne_top⟩
  · exact (Finset.lt_fold_max _).mpr (Or.inr ⟨⟨0, hn⟩, Finset.mem_univ _, bot_lt_iff_ne_bot.mpr (hg _).ne_bot⟩)

include hQ hK in
theorem rowmax_real (hM : 0 < M) (b : Fin B) (n : Fin N) : IsRealS (rowmax Q K b n) := by
  unfold rowmax
  show IsRealS (Finset.fold max (Ideal.ofBits .f32 0xFF800000#32) _ _)
  rw [Cert.Consts.ofBits_ninf]
  exact fold_max_real hM _ fun m => score_real Q K hQ hK b n m

include hQ hK in
/-- Each exponential is a positive real. -/
theorem pexp_real (hM : 0 < M) (b : Fin B) (n : Fin N) (m : Fin M) :
    ∃ p : ℝ, 0 < p ∧ pexp Q K b n m = (p : EReal) := by
  obtain ⟨r, hr⟩ := (score_real Q K hQ hK b n m).sub (rowmax_real Q K hQ hK hM b n)
  exact ⟨Real.exp r, Real.exp_pos r, by unfold pexp; rw [hr]; rfl⟩

include hQ hK in
/-- Each row sum is a positive real. -/
theorem lsum_real (hM : 0 < M) (b : Fin B) (n : Fin N) : ∃ l : ℝ, 0 < l ∧ lsum Q K b n = (l : EReal) := by
  have hp : ∀ m : Fin M, ∃ p : ℝ, 0 < p ∧ pexp Q K b n m = (p : EReal) := fun m => pexp_real Q K hQ hK hM b n m
  choose p hp0 hpe using hp
  haveI : Nonempty (Fin M) := ⟨⟨0, hM⟩⟩
  refine ⟨∑ m : Fin M, p m, Finset.sum_pos (fun m _ => hp0 m) Finset.univ_nonempty, ?_⟩
  unfold lsum
  rw [coe_fintype_sum]
  exact Finset.sum_congr rfl fun m _ => hpe m

/-- Over reals, dividing every weight by a nonzero real and then summing the weighted terms is summing
    and then dividing once. -/
theorem sum_div_mul {ι : Type*} [Fintype ι] (P Y : ι → EReal) (hP : ∀ i, IsRealS (P i)) (hY : ∀ i, IsRealS (Y i))
    (l : ℝ) (hl : l ≠ 0) :
    ∑ i, Ideal.div (P i) (l : EReal) * Y i = Ideal.div (∑ i, P i * Y i) (l : EReal) := by
  choose p hp using hP
  choose y hy using hY
  simp only [Ideal.div_coe hl, hp, hy]
  have e1 : ∀ i, ((p i : ℝ) : EReal) * ((1 / l : ℝ) : EReal) * ((y i : ℝ) : EReal) = ((p i * (1 / l) * y i : ℝ) : EReal) :=
    fun i => by rw [EReal.coe_mul, EReal.coe_mul]
  have e2 : ∀ i, ((p i : ℝ) : EReal) * ((y i : ℝ) : EReal) = ((p i * y i : ℝ) : EReal) := fun i => by rw [EReal.coe_mul]
  simp only [e1, e2]
  rw [← coe_fintype_sum, ← coe_fintype_sum, ← EReal.coe_mul, Finset.sum_mul]
  exact congrArg _ (Finset.sum_congr rfl fun i _ => by ring)

include hQ hK hX in
/-- THE LAW that joins the two programs: on real arrays the reference's row is the kernel's row. -/
theorem oref_eq_otile (hM : 0 < M) (b : Fin B) (n : Fin N) (e : Fin E) : oref Q K X b n e = otile Q K X b n e := by
  obtain ⟨l, hl, hle⟩ := lsum_real Q K hQ hK hM b n
  unfold oref otile
  rw [hle]
  exact sum_div_mul _ _ (fun m => by obtain ⟨p, -, hp⟩ := pexp_real Q K hQ hK hM b n m; exact ⟨p, hp⟩)
    (fun m => hX _) l (ne_of_gt hl)

end Stage2

/-! ## The mean over the query rows: the reference's one sum and division, the kernel's four blocks and product -/

/-- The reference's result: the sum over all 2048 query rows, divided by their number. -/
def outRef (Q K X : Arr3 16 2048 1024) : Arr2 16 1024 := fun i =>
  Ideal.div (∑ n : Fin 2048, oref Q K X (i 0) n (i 1)) cnt

/-- Query row r of block k (four blocks of 512 rows). -/
abbrev qrow (k : Fin 4) (r : Fin 512) : Fin 2048 := ⟨512 * k.val + r.val, Cert.LibBlockSumGen.block_index_lt k r⟩

/-- The kernel's partial sum of one block of 512 query rows. -/
def part (Q K X : Arr3 16 2048 1024) (b : Fin 16) (k : Fin 4) (e : Fin 1024) : EReal :=
  ∑ r : Fin 512, otile Q K X b (qrow k r) e

/-- The kernel's accumulator after block q of a batch entry: zero, plus the blocks' partial sums in order, and after
    the last block the product with the reciprocal of the row count. -/
def acc (g : Fin 4 → Fin 1024 → EReal) : ℕ → Fin 1024 → EReal
  | 0 => fun e => 0 + g 0 e
  | 1 => fun e => 0 + g 0 e + g 1 e
  | 2 => fun e => 0 + g 0 e + g 1 e + g 2 e
  | _ => fun e => (0 + g 0 e + g 1 e + g 2 e + g 3 e) * rcnt

/-- The kernel's result. -/
def outKer (Q K X : Arr3 16 2048 1024) : Arr2 16 1024 := fun i => acc (part Q K X (i 0)) 3 (i 1)

/-- On real arrays the two results are one array. -/
theorem mean_eq (Q K X : Arr3 16 2048 1024) (hQ : IsReal Q) (hK : IsReal K) (hX : IsReal X) (b : Fin 16) (e : Fin 1024) :
    Ideal.div (∑ n : Fin 2048, oref Q K X b n e) cnt = acc (part Q K X b) 3 e := by
  show Ideal.div _ (Ideal.ofBits .f32 0x45000000#32) = (0 + _ + _ + _ + _) * Ideal.ofBits .f32 0x3A000000#32
  rw [Cert.Consts.ofBits_2048, Cert.Consts.ofBits_inv2048, Ideal.div_coe (by norm_num : (2048 : ℝ) ≠ 0)]
  refine congrArg (· * _) ?_
  have h : ∀ n : Fin 2048, oref Q K X b n e = otile Q K X b n e :=
    fun n => oref_eq_otile Q K X hQ hK hX (by norm_num : 0 < 2048) b n e
  simp only [h]
  rw [Cert.LibBlockSumGen.sum_blocks (K := 4) (B := 512) (by norm_num : 2048 = 4 * 512), Fin.sum_univ_four, zero_add]
  rfl

theorem outRef_eq_outKer (Q K X : Arr3 16 2048 1024) (hQ : IsReal Q) (hK : IsReal K) (hX : IsReal X) :
    outRef Q K X = outKer Q K X := by
  funext i
  obtain ⟨b, e, rfl⟩ : ∃ (b : Fin 16) (e : Fin 1024), i = ix2 b e := ⟨i 0, i 1, eq_ix2 i⟩
  exact mean_eq Q K X hQ hK hX b e

end Cert.Attn

end
-- ==== Proof.LibColumns.lean ====
/-
  A row statistic kept as a column. A reduction over the lanes of an [a, b] array leaves one value per row, an [a]
  vector; "keepdims" reshapes it to the column [a, 1], and the column is then broadcast back over the lanes to [a, b].
  Read at an index, the column at (i, 0) is the vector at i, and the broadcast at (p, c) is the column at (p, 0):
  every lane of row p sees row p's statistic. Also the lane reductions themselves at the ideal values, read at a row:
  a lane sum is the sum over the row, a lane maximum the maximum over the row taken from the accumulator's value.
  General facts, for any extents.
-/
import Idealize.ShloMosaic.Lib.Pipeline.Value
import Idealize.ShloMosaic.Lib.ValueIdx
import Idealize.ShloMosaic.PureOps.Ideal.Laws

noncomputable section

namespace Cert.Columns

open Idealize.ShloMosaic Idealize.ShloMosaic.ValueIdx
open scoped BigOperators

variable {α : Type}

/-- An [a] vector cast to the column [a, 1] reads, at (i, u), the vector at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast over b lanes reads, at (p, c), the column at row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

/-- At the ideal values a lane sum of an [a, b] array, read at row p, is the sum over the row. -/
theorem laneSum_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (funext fun ax => Fin.ext (by
      match ax with
      | ⟨0, _⟩ => rfl
      | ⟨1, _⟩ => rfl)))

/-- At the ideal values a lane maximum of an [a, b] array, read at row p, is the maximum over the row taken from
    the accumulator's value. -/
theorem laneMax_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ v acc h hφ hacc (ix1 p)
      = (Finset.univ : Finset (Fin b)).fold max (Ideal.ofBits φ acc) (fun k => v (ix2 p k)) :=
  (Ideal.multiReduction_maximumf_single v acc h hφ hacc (ix1 p)).trans
    (congrArg (fun f => (Finset.univ : Finset (Fin b)).fold max (Ideal.ofBits φ acc) f) (funext fun k => congrArg v (funext fun ax => Fin.ext (by
      match ax with
      | ⟨0, _⟩ => rfl
      | ⟨1, _⟩ => rfl))))

end Cert.Columns

end
-- ==== Proof.LibColumnSum.lean ====
/-
  A sum down the columns. At the ideal values a reduction of an [a, b] array over its ROWS (axis 0) leaves one value
  per column; read at column c it is the sum of the column's entries. A general fact, for any extents.
-/
import Idealize.ShloMosaic.Lib.ValueIdx
import Idealize.ShloMosaic.PureOps.Ideal.Laws

noncomputable section

namespace Cert.ColumnSum

open Idealize.ShloMosaic Idealize.ShloMosaic.ValueIdx
open scoped BigOperators

/-- At the ideal values a sum over the rows of an [a, b] array, read at column c, is the sum down the column. -/
theorem colSum_apply {a b : ℕ} {φ : FTy} (v : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (c : Fin b) :
    multiReduction .add [0] ⟨1, ![b]⟩ v acc h hφ hacc (ix1 c) = ∑ k : Fin a, v (ix2 k c) :=
  (Ideal.multiReduction_add_single v acc h hφ hacc (ix1 c)).trans
    (Finset.sum_congr rfl fun k _ => congrArg v (funext fun ax => Fin.ext (by
      match ax with
      | ⟨0, _⟩ => rfl
      | ⟨1, _⟩ => rfl)))

end Cert.ColumnSum

end
-- ==== Proof.Payloads.lean ====
/-
  The kernels' arithmetic, read at an index at the ideal values.

  Stage 1 (one block of 512 feature rows): the stored blocks are the normalized rows and their projections by the
  two (transposed) weight matrices.  Stage 2 (one block of 512 query rows against all 2048 keys and values of the
  batch entry): the value stored is the accumulator plus, lane by lane, the sum over the 512 rows of
  (Σₘ pₘ · vₘ) / l — scores scaled, row maximum subtracted, exponentiated, summed — and the closing step multiplies
  the accumulator by the reciprocal of the row count.
-/
import proofs.«108182_j58196806861037_2_alg».proof.Proof.Gen.KernelIdeal.Skeleton
import Idealize.ShloMosaic.Lib.ValueLayout
import Idealize.ShloMosaic.Lib.Pipeline.Value
import Idealize.ShloMosaic.Lib.ValueIdx
import Idealize.ShloMosaic.PureOps.Ideal.Laws
import proofs.«108182_j58196806861037_2_alg».proof.Proof.Spec
import proofs.«108182_j58196806861037_2_alg».proof.Proof.LibColumns
import proofs.«108182_j58196806861037_2_alg».proof.Proof.LibColumnSum

noncomputable section

namespace Cert.KernelIdeal.Pay

open Cert.KernelIdeal Cert.KernelIdeal.Gen Idealize.ShloMosaic Idealize.ShloMosaic.ValueIdx Cert.Attn
open scoped BigOperators

theorem sqrt_apply {s : Shape} {φ : FTy} (a : FVec Ideal s φ) (i : s.Idx) : sqrt a i = Ideal.sqrt (a i) := rfl
theorem exp_apply {s : Shape} {φ : FTy} (a : FVec Ideal s φ) (i : s.Idx) : exp a i = Ideal.exp (a i) := rfl

/-- A lane sum from the zero word, read at a row: the sum over the row. -/
theorem laneSum0 {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ v 0x00000000#32 h hφ hacc (ix1 p) = ∑ k : Fin b, v (ix2 p k) :=
  Cert.Columns.laneSum_apply v _ h hφ hacc p

/-- A lane maximum from the lower-infinity word, read at a row: the maximum over the row from that word's value. -/
theorem laneMaxNinf {a b : ℕ} (v : FVec Ideal ⟨2, ![a, b]⟩ .f32) (h : (⟨2, ![a, b]⟩ : Shape).Reduces [1] ⟨1, ![a]⟩)
    (hφ : FKind.Formats .f32) (hacc : (0xFF800000#32 : BitVec 32) = 0xFF800000#32) (p : Fin a) :
    multiReduction .maximumf [1] ⟨1, ![a]⟩ v 0xFF800000#32 h hφ hacc (ix1 p)
      = (Finset.univ : Finset (Fin b)).fold max (Ideal.ofBits .f32 0xFF800000#32) (fun k => v (ix2 p k)) :=
  Cert.Columns.laneMax_apply v _ h hφ hacc p

/-- A sum over the rows from the zero word, read at a column: the sum down the column. -/
theorem colSum0 {a b : ℕ} (v : FVec Ideal ⟨2, ![a, b]⟩ .f32) (h : (⟨2, ![a, b]⟩ : Shape).Reduces [0] ⟨1, ![b]⟩)
    (hφ : FKind.Formats .f32) (hacc : (0x00000000#32 : BitVec 32) = 0x00000000#32) (c : Fin b) :
    multiReduction .add [0] ⟨1, ![b]⟩ v 0x00000000#32 h hφ hacc (ix1 c) = ∑ k : Fin a, v (ix2 k c) :=
  Cert.ColumnSum.colSum_apply v _ h hφ hacc c

/-- The matrix product into a zero accumulator, read at (r, j): the sum over the contraction index. -/
theorem mm_proj {φ₁ φ₂ : FTy} (x : FVec Ideal S512x1024 φ₁) (w : FVec Ideal S1024x1024 φ₂) (r : Fin 512) (j : Fin 1024) :
    matmul dot_S512x1024_S1024x1024_S512x1024_1_0_0_1_n_n none x w (constant S512x1024 .f32 0x00000000#32) (ix2 r j) = ∑ e : Fin 1024, x (ix2 r e) * w (ix2 e j) := by
  have l0 : ∀ q : dot_S512x1024_S1024x1024_S512x1024_1_0_0_1_n_n.contr.Idx, (dot_S512x1024_S1024x1024_S512x1024_1_0_0_1_n_n.lhsIdx (ix2 r j) q 0).val = r.val := fun q => by
    unfold DotDims.lhsIdx
    rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
    rfl
  have r1 : ∀ q : dot_S512x1024_S1024x1024_S512x1024_1_0_0_1_n_n.contr.Idx, (dot_S512x1024_S1024x1024_S512x1024_1_0_0_1_n_n.rhsIdx (ix2 r j) q 1).val = j.val := fun q => by
    unfold DotDims.rhsIdx
    rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
    rfl
  simp only [matmul]
  rw [Ideal.matmul_constant_zero_apply, ← Equiv.sum_comp (contrEquiv1 dot_S512x1024_S1024x1024_S512x1024_1_0_0_1_n_n 1024 rfl rfl).symm]
  refine Finset.sum_congr rfl fun e _ => ?_
  have he := contrEquiv1_symm_val dot_S512x1024_S1024x1024_S512x1024_1_0_0_1_n_n 1024 rfl rfl e
  have el : dot_S512x1024_S1024x1024_S512x1024_1_0_0_1_n_n.lhsIdx (ix2 r j) ((contrEquiv1 dot_S512x1024_S1024x1024_S512x1024_1_0_0_1_n_n 1024 rfl rfl).symm e) = ix2 r e := funext fun ax => Fin.ext (by
    match ax with
    | ⟨0, _⟩ => exact l0 _
    | ⟨1, _⟩ => exact (dot_S512x1024_S1024x1024_S512x1024_1_0_0_1_n_n.lhsIdx_val_of_single rfl _ _).trans he)
  have er : dot_S512x1024_S1024x1024_S512x1024_1_0_0_1_n_n.rhsIdx (ix2 r j) ((contrEquiv1 dot_S512x1024_S1024x1024_S512x1024_1_0_0_1_n_n 1024 rfl rfl).symm e) = ix2 e j := funext fun ax => Fin.ext (by
    match ax with
    | ⟨0, _⟩ => exact (dot_S512x1024_S1024x1024_S512x1024_1_0_0_1_n_n.rhsIdx_val_of_single rfl _ _).trans he
    | ⟨1, _⟩ => exact r1 _)
  rw [el, er]

/-- The matrix product into a zero accumulator, read at (r, j): the sum over the contraction index. -/
theorem mm_score {φ₁ φ₂ : FTy} (x : FVec Ideal S512x1024 φ₁) (w : FVec Ideal S1024x2048 φ₂) (r : Fin 512) (j : Fin 2048) :
    matmul dot_S512x1024_S1024x2048_S512x2048_1_0_0_1_n_n none x w (constant S512x2048 .f32 0x00000000#32) (ix2 r j) = ∑ e : Fin 1024, x (ix2 r e) * w (ix2 e j) := by
  have l0 : ∀ q : dot_S512x1024_S1024x2048_S512x2048_1_0_0_1_n_n.contr.Idx, (dot_S512x1024_S1024x2048_S512x2048_1_0_0_1_n_n.lhsIdx (ix2 r j) q 0).val = r.val := fun q => by
    unfold DotDims.lhsIdx
    rw [dif_neg (show ¬(0 : Fin S512x1024.rank) ∈ dot_S512x1024_S1024x2048_S512x2048_1_0_0_1_n_n.lhsBatch by decide), dif_pos (show (0 : Fin S512x1024.rank) ∈ dot_S512x1024_S1024x2048_S512x2048_1_0_0_1_n_n.lhsNonContracting by decide)]
    rfl
  have r1 : ∀ q : dot_S512x1024_S1024x2048_S512x2048_1_0_0_1_n_n.contr.Idx, (dot_S512x1024_S1024x2048_S512x2048_1_0_0_1_n_n.rhsIdx (ix2 r j) q 1).val = j.val := fun q => by
    unfold DotDims.rhsIdx
    rw [dif_neg (show ¬(1 : Fin S1024x2048.rank) ∈ dot_S512x1024_S1024x2048_S512x2048_1_0_0_1_n_n.rhsBatch by decide), dif_pos (show (1 : Fin S1024x2048.rank) ∈ dot_S512x1024_S1024x2048_S512x2048_1_0_0_1_n_n.rhsNonContracting by decide)]
    rfl
  simp only [matmul]
  rw [Ideal.matmul_constant_zero_apply, ← Equiv.sum_comp (contrEquiv1 dot_S512x1024_S1024x2048_S512x2048_1_0_0_1_n_n 1024 rfl rfl).symm]
  refine Finset.sum_congr rfl fun e _ => ?_
  have he := contrEquiv1_symm_val dot_S512x1024_S1024x2048_S512x2048_1_0_0_1_n_n 1024 rfl rfl e
  have el : dot_S512x1024_S1024x2048_S512x2048_1_0_0_1_n_n.lhsIdx (ix2 r j) ((contrEquiv1 dot_S512x1024_S1024x2048_S512x2048_1_0_0_1_n_n 1024 rfl rfl).symm e) = ix2 r e := funext fun ax => Fin.ext (by
    match ax with
    | ⟨0, _⟩ => exact l0 _
    | ⟨1, _⟩ => exact (dot_S512x1024_S1024x2048_S512x2048_1_0_0_1_n_n.lhsIdx_val_of_single rfl _ _).trans he)
  have er : dot_S512x1024_S1024x2048_S512x2048_1_0_0_1_n_n.rhsIdx (ix2 r j) ((contrEquiv1 dot_S512x1024_S1024x2048_S512x2048_1_0_0_1_n_n 1024 rfl rfl).symm e) = ix2 e j := funext fun ax => Fin.ext (by
    match ax with
    | ⟨0, _⟩ => exact (dot_S512x1024_S1024x2048_S512x2048_1_0_0_1_n_n.rhsIdx_val_of_single rfl _ _).trans he
    | ⟨1, _⟩ => exact r1 _)
  rw [el, er]

/-- The matrix product into a zero accumulator, read at (r, j): the sum over the contraction index. -/
theorem mm_pv {φ₁ φ₂ : FTy} (x : FVec Ideal S512x2048 φ₁) (w : FVec Ideal S2048x1024 φ₂) (r : Fin 512) (j : Fin 1024) :
    matmul dot_S512x2048_S2048x1024_S512x1024_1_0_0_1_n_n none x w (constant S512x1024 .f32 0x00000000#32) (ix2 r j) = ∑ e : Fin 2048, x (ix2 r e) * w (ix2 e j) := by
  have l0 : ∀ q : dot_S512x2048_S2048x1024_S512x1024_1_0_0_1_n_n.contr.Idx, (dot_S512x2048_S2048x1024_S512x1024_1_0_0_1_n_n.lhsIdx (ix2 r j) q 0).val = r.val := fun q => by
    unfold DotDims.lhsIdx
    rw [dif_neg (show ¬(0 : Fin S512x2048.rank) ∈ dot_S512x2048_S2048x1024_S512x1024_1_0_0_1_n_n.lhsBatch by decide), dif_pos (show (0 : Fin S512x2048.rank) ∈ dot_S512x2048_S2048x1024_S512x1024_1_0_0_1_n_n.lhsNonContracting by decide)]
    rfl
  have r1 : ∀ q : dot_S512x2048_S2048x1024_S512x1024_1_0_0_1_n_n.contr.Idx, (dot_S512x2048_S2048x1024_S512x1024_1_0_0_1_n_n.rhsIdx (ix2 r j) q 1).val = j.val := fun q => by
    unfold DotDims.rhsIdx
    rw [dif_neg (show ¬(1 : Fin S2048x1024.rank) ∈ dot_S512x2048_S2048x1024_S512x1024_1_0_0_1_n_n.rhsBatch by decide), dif_pos (show (1 : Fin S2048x1024.rank) ∈ dot_S512x2048_S2048x1024_S512x1024_1_0_0_1_n_n.rhsNonContracting by decide)]
    rfl
  simp only [matmul]
  rw [Ideal.matmul_constant_zero_apply, ← Equiv.sum_comp (contrEquiv1 dot_S512x2048_S2048x1024_S512x1024_1_0_0_1_n_n 2048 rfl rfl).symm]
  refine Finset.sum_congr rfl fun e _ => ?_
  have he := contrEquiv1_symm_val dot_S512x2048_S2048x1024_S512x1024_1_0_0_1_n_n 2048 rfl rfl e
  have el : dot_S512x2048_S2048x1024_S512x1024_1_0_0_1_n_n.lhsIdx (ix2 r j) ((contrEquiv1 dot_S512x2048_S2048x1024_S512x1024_1_0_0_1_n_n 2048 rfl rfl).symm e) = ix2 r e := funext fun ax => Fin.ext (by
    match ax with
    | ⟨0, _⟩ => exact l0 _
    | ⟨1, _⟩ => exact (dot_S512x2048_S2048x1024_S512x1024_1_0_0_1_n_n.lhsIdx_val_of_single rfl _ _).trans he)
  have er : dot_S512x2048_S2048x1024_S512x1024_1_0_0_1_n_n.rhsIdx (ix2 r j) ((contrEquiv1 dot_S512x2048_S2048x1024_S512x1024_1_0_0_1_n_n 2048 rfl rfl).symm e) = ix2 e j := funext fun ax => Fin.ext (by
    match ax with
    | ⟨0, _⟩ => exact (dot_S512x2048_S2048x1024_S512x1024_1_0_0_1_n_n.rhsIdx_val_of_single rfl _ _).trans he
    | ⟨1, _⟩ => exact r1 _)
  rw [el, er]

/-! ## Stage 1 -/

/-- The normalized block, before the leading unit axis is put back. -/
theorem pay1_apply (x0 : Vec Ideal S1x512x1024 .f32) (r : Fin 512) (e : Fin 1024) :
    k0_pay1 (F := Ideal) x0 (ix2 r e) = xn (B := 1) (N := 512) (E := 1024) x0 0 r e := by
  unfold k0_pay1 xn den
  dsimp only
  show Ideal.div (shapeCast S512x1024 x0 _ (ix2 r e)) (broadcastTo S512x1024 _ _ (ix2 r e)) = _
  rw [shapeCast_1ab_ab_apply x0 _ r e, Cert.Columns.broadcastTo_a1_ab_apply _ _ r e 0]
  rw [maximumf_apply, sqrt_apply, broadcast_apply, Cert.Columns.shapeCast_a_a1_apply _ _ r 0, laneSum0]
  simp only [mulf_apply, shapeCast_1ab_ab_apply]
  rfl

/-- The first stored block: the normalized rows. -/
theorem pay2_apply (x0 : Vec Ideal S1x512x1024 .f32) (u : Fin 1) (r : Fin 512) (e : Fin 1024) :
    k0_pay2 (F := Ideal) x0 (ix3 u r e) = xn (B := 1) (N := 512) (E := 1024) x0 0 r e := by
  unfold k0_pay2
  rw [shapeCast_ab_1ab_apply _ _ u r e, pay1_apply]

/-- The second stored block: the normalized rows times the first (transposed) weight matrix. -/
theorem pay3_apply (x0 : Vec Ideal S1x512x1024 .f32) (w : Vec Ideal S1024x1024 .bf16) (u : Fin 1) (r : Fin 512) (j : Fin 1024) :
    k0_pay3 (F := Ideal) x0 w (ix3 u r j) = ∑ e : Fin 1024, xn (B := 1) (N := 512) (E := 1024) x0 0 r e * w (ix2 e j) := by
  unfold k0_pay3
  rw [shapeCast_ab_1ab_apply _ _ u r j, truncf_apply, mm_proj, shapeCast_self]
  exact Finset.sum_congr rfl fun e _ => by rw [pay1_apply]

/-- The third stored block: the same with the second weight matrix. -/
theorem pay4_apply (x0 : Vec Ideal S1x512x1024 .f32) (w : Vec Ideal S1024x1024 .bf16) (u : Fin 1) (r : Fin 512) (j : Fin 1024) :
    k0_pay4 (F := Ideal) x0 w (ix3 u r j) = ∑ e : Fin 1024, xn (B := 1) (N := 512) (E := 1024) x0 0 r e * w (ix2 e j) := by
  unfold k0_pay4
  rw [shapeCast_ab_1ab_apply _ _ u r j, truncf_apply, mm_proj, shapeCast_self]
  exact Finset.sum_congr rfl fun e _ => by rw [pay1_apply]

/-! ## Stage 2 -/

/-- The scaled scores of a block of 512 query rows against the 2048 key rows. -/
def sVec (x0 : Vec Ideal S1x512x1024 .bf16) (x1 : Vec Ideal S1x2048x1024 .bf16) : FVec Ideal S512x2048 .f32 :=
  mulf (matmul dot_S512x1024_S1024x2048_S512x2048_1_0_0_1_n_n none (shapeCast S512x1024 x0 shapeCasts_S1x512x1024_S512x1024 : FVec Ideal S512x1024 .bf16)
      (transpose S1024x2048 [1, 0] (shapeCast S2048x1024 x1 shapeCasts_S1x2048x1024_S2048x1024 : FVec Ideal S2048x1024 .bf16) transposes_S2048x1024_p1_0_S1024x2048 : FVec Ideal S1024x2048 .bf16)
      (constant S512x2048 .f32 0x00000000#32))
    (broadcast S512x2048 (Scalar.ofBits .f32 0x3D000000#32))

theorem sVec_apply (x0 : Vec Ideal S1x512x1024 .bf16) (x1 : Vec Ideal S1x2048x1024 .bf16) (r : Fin 512) (m : Fin 2048) :
    sVec x0 x1 (ix2 r m) = score (B := 1) (N := 512) (M := 2048) (E := 1024) x0 x1 0 r m := by
  unfold sVec score
  rw [mulf_apply, broadcast_apply, mm_score]
  refine congrArg (· * _) (Finset.sum_congr rfl fun j _ => ?_)
  rw [shapeCast_1ab_ab_apply x0 _ r j, transpose_ix2_apply _ _ j m, shapeCast_1ab_ab_apply x1 _ m j]

/-- The exponentials of the scores less their row maxima. -/
def pVec (x0 : Vec Ideal S1x512x1024 .bf16) (x1 : Vec Ideal S1x2048x1024 .bf16) : FVec Ideal S512x2048 .f32 :=
  exp (subf (sVec x0 x1) (broadcastTo S512x2048 (shapeCast S512x1
    (multiReduction .maximumf [1] S512 (sVec x0 x1) 0xFF800000#32 reduces_S512x2048_S512 (.inl rfl) rfl) shapeCasts_S512_S512x1)
    broadcasts_S512x1_S512x2048))

theorem pVec_apply (x0 : Vec Ideal S1x512x1024 .bf16) (x1 : Vec Ideal S1x2048x1024 .bf16) (r : Fin 512) (m : Fin 2048) :
    pVec x0 x1 (ix2 r m) = pexp (B := 1) (N := 512) (M := 2048) (E := 1024) x0 x1 0 r m := by
  unfold pVec pexp rowmax
  rw [exp_apply, subf_apply, Cert.Columns.broadcastTo_a1_ab_apply _ _ r m 0, Cert.Columns.shapeCast_a_a1_apply _ _ r 0,
    laneMaxNinf, sVec_apply]
  simp only [sVec_apply]

/-- The accumulated value: the accumulator plus the column sums of the normalized weighted rows. -/
theorem pay3_eq (x0 : Vec Ideal S1x512x1024 .bf16) (x1 x2 : Vec Ideal S1x2048x1024 .bf16) (v26 : Vec Ideal S1x1x1024 .f32) :
    k1_pay3 (F := Ideal) x0 x1 x2 v26
      = addf (shapeCast S1x1x1024 v26 shapeCasts_S1x1x1024_S1x1x1024)
          (shapeCast S1x1x1024 (shapeCast S1x1024 (multiReduction .add [0] S1024
            (divf (matmul dot_S512x2048_S2048x1024_S512x1024_1_0_0_1_n_n none (truncf .bf16 (pVec x0 x1) bitsLt_bf16_f32)
                (shapeCast S2048x1024 x2 shapeCasts_S1x2048x1024_S2048x1024 : FVec Ideal S2048x1024 .bf16) (constant S512x1024 .f32 0x00000000#32))
              (broadcastTo S512x1024 (shapeCast S512x1 (multiReduction .add [1] S512 (pVec x0 x1) 0x00000000#32
                reduces_S512x2048_S512 (.inl rfl) rfl) shapeCasts_S512_S512x1) broadcasts_S512x1_S512x1024))
            0x00000000#32 reduces_S512x1024_S1024 (.inl rfl) rfl) shapeCasts_S1024_S1x1024) shapeCasts_S1x1024_S1x1x1024) := by
  unfold k1_pay3 pVec sVec
  rfl

theorem k1_pay3_apply (x0 : Vec Ideal S1x512x1024 .bf16) (x1 x2 : Vec Ideal S1x2048x1024 .bf16) (v26 : Vec Ideal S1x1x1024 .f32)
    (u z : Fin 1) (e : Fin 1024) :
    k1_pay3 (F := Ideal) x0 x1 x2 v26 (ix3 u z e)
      = v26 (ix3 u z e) + ∑ r : Fin 512, otile (B := 1) (N := 512) (M := 2048) (E := 1024) x0 x1 x2 0 r e := by
  rw [pay3_eq, addf_apply, shapeCast_self, shapeCast_ab_1ab_apply _ _ u z e, shapeCast_a_1a_apply _ _ z e, colSum0]
  refine congrArg (_ + ·) (Finset.sum_congr rfl fun r _ => ?_)
  unfold otile lsum
  rw [divf_apply, mm_pv, Cert.Columns.broadcastTo_a1_ab_apply _ _ r e 0, Cert.Columns.shapeCast_a_a1_apply _ _ r 0, laneSum0]
  simp only [truncf_apply, pVec_apply, shapeCast_1ab_ab_apply]

/-- The closing step: the accumulator times the reciprocal of the row count. -/
theorem k1_pay1_apply (v34 : Vec Ideal S1x1x1024 .f32) (i : S1x1x1024.Idx) :
    k1_pay1 (F := Ideal) v34 i = v34 i * rcnt := by
  unfold k1_pay1
  rw [mulf_apply, shapeCast_self, broadcast_apply]
  rfl

/-- The opening step stores zeros. -/
theorem k1_pay2_apply (i : S1x1x1024.Idx) : k1_pay2 (F := Ideal) i = 0 := by
  unfold k1_pay2
  rw [broadcast_apply]
  exact Ideal.ofBits_zero_f32

end Cert.KernelIdeal.Pay

end
-- ==== Proof.Stage1Value.lean ====
/-
  The first kernel's three output arrays, whole. Its grid is 16 batch entries by 4 blocks of 512 rows; at point
  (b, n) it reads rows 512n … 512n+511 of batch entry b of the features and both weight matrices whole, and writes
  the same rows of the three outputs. The blocks tile each output, so each output array ends holding one function
  of the arrays the kernel finds: the normalized features, and their projections by the two weight matrices
  (which the kernel finds transposed).
-/
import proofs.«108182_j58196806861037_2_alg».proof.Proof.Gen.KernelIdeal.Frame
import proofs.«108182_j58196806861037_2_alg».proof.Proof.Payloads
import Idealize.ShloMosaic.Lib.Pipeline.Value

set_option maxRecDepth 16384

noncomputable section

namespace Cert.KernelIdeal.Stage1

open Cert.KernelIdeal Cert.KernelIdeal.Gen Idealize.ShloMosaic Idealize.ShloMosaic.TcCoe Idealize.ShloMosaic.ValueIdx Idealize.SL.Sem Cert.Attn
open Idealize.ShloMosaic.Pipeline (Dat)
open scoped BigOperators

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps, decided over the grid: the feature window and the three output windows move together
    (batch entry, row block, 0); the weight windows stay at the origin. -/
theorem idx_facts : ∀ t : Fin cfg0.N,
    win0_0.index t (0 : Fin 3) = win0_3.index t (0 : Fin 3) ∧ win0_0.index t (1 : Fin 3) = win0_3.index t (1 : Fin 3)
    ∧ win0_0.index t (2 : Fin 3) = 0 ∧ win0_3.index t (2 : Fin 3) = 0
    ∧ win0_4.index t (0 : Fin 3) = win0_3.index t (0 : Fin 3) ∧ win0_4.index t (1 : Fin 3) = win0_3.index t (1 : Fin 3)
    ∧ win0_4.index t (2 : Fin 3) = 0
    ∧ win0_5.index t (0 : Fin 3) = win0_3.index t (0 : Fin 3) ∧ win0_5.index t (1 : Fin 3) = win0_3.index t (1 : Fin 3)
    ∧ win0_5.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) ≤ 15 ∧ win0_3.index t (1 : Fin 3) ≤ 3 :=
  (by decide +kernel : ∀ t : Fin grid0.N, _)

/-- Every (batch entry, row block) is some point's. -/
theorem idx_onto : ∀ (q0 : Fin 16) (q1 : Fin 4), ∃ t : Fin cfg0.N,
    win0_3.index t (0 : Fin 3) = q0.val ∧ win0_3.index t (1 : Fin 3) = q1.val :=
  (by decide +kernel : ∀ (q0 : Fin 16) (q1 : Fin 4), ∃ t : Fin grid0.N, win0_3.index t (0 : Fin 3) = q0.val ∧ win0_3.index t (1 : Fin 3) = q1.val)

/-- Window 0's block at point t reads row (index₀, 512·index₁ + r) of its array. -/
theorem emb0_eq (t : Fin cfg0.N) (u : Fin 1) (r : Fin 512) (e : Fin 1024) (bb : Fin 16) (nn : Fin 2048)
    (hb : bb.val = win0_3.index t (0 : Fin 3)) (hn : nn.val = win0_3.index t (1 : Fin 3) * 512 + r.val) :
    ((cfg0.win 0).blk t).view.emb (ix3 u r e) = ix3 bb nn e := by
  obtain ⟨e00, e01, e02, e32, e40, e41, e42, e50, e51, e52, -⟩ := idx_facts t
  have hu : u.val = 0 := by omega
  funext a; apply Fin.ext
  match a with
  | ⟨0, _⟩ => show win0_0.index t (0 : Fin 3) * 1 + 1 * u.val = bb.val; omega
  | ⟨1, _⟩ => show win0_0.index t (1 : Fin 3) * 512 + 1 * r.val = nn.val; omega
  | ⟨2, _⟩ => show win0_0.index t (2 : Fin 3) * 1024 + 1 * e.val = e.val; omega

/-- Window 3's block at point t reads row (index₀, 512·index₁ + r) of its array. -/
theorem emb3_eq (t : Fin cfg0.N) (u : Fin 1) (r : Fin 512) (e : Fin 1024) (bb : Fin 16) (nn : Fin 2048)
    (hb : bb.val = win0_3.index t (0 : Fin 3)) (hn : nn.val = win0_3.index t (1 : Fin 3) * 512 + r.val) :
    ((cfg0.win 3).blk t).view.emb (ix3 u r e) = ix3 bb nn e := by
  obtain ⟨e00, e01, e02, e32, e40, e41, e42, e50, e51, e52, -⟩ := idx_facts t
  have hu : u.val = 0 := by omega
  funext a; apply Fin.ext
  match a with
  | ⟨0, _⟩ => show win0_3.index t (0 : Fin 3) * 1 + 1 * u.val = bb.val; omega
  | ⟨1, _⟩ => show win0_3.index t (1 : Fin 3) * 512 + 1 * r.val = nn.val; omega
  | ⟨2, _⟩ => show win0_3.index t (2 : Fin 3) * 1024 + 1 * e.val = e.val; omega

/-- Window 4's block at point t reads row (index₀, 512·index₁ + r) of its array. -/
theorem emb4_eq (t : Fin cfg0.N) (u : Fin 1) (r : Fin 512) (e : Fin 1024) (bb : Fin 16) (nn : Fin 2048)
    (hb : bb.val = win0_3.index t (0 : Fin 3)) (hn : nn.val = win0_3.index t (1 : Fin 3) * 512 + r.val) :
    ((cfg0.win 4).blk t).view.emb (ix3 u r e) = ix3 bb nn e := by
  obtain ⟨e00, e01, e02, e32, e40, e41, e42, e50, e51, e52, -⟩ := idx_facts t
  have hu : u.val = 0 := by omega
  funext a; apply Fin.ext
  match a with
  | ⟨0, _⟩ => show win0_4.index t (0 : Fin 3) * 1 + 1 * u.val = bb.val; omega
  | ⟨1, _⟩ => show win0_4.index t (1 : Fin 3) * 512 + 1 * r.val = nn.val; omega
  | ⟨2, _⟩ => show win0_4.index t (2 : Fin 3) * 1024 + 1 * e.val = e.val; omega

/-- Window 5's block at point t reads row (index₀, 512·index₁ + r) of its array. -/
theorem emb5_eq (t : Fin cfg0.N) (u : Fin 1) (r : Fin 512) (e : Fin 1024) (bb : Fin 16) (nn : Fin 2048)
    (hb : bb.val = win0_3.index t (0 : Fin 3)) (hn : nn.val = win0_3.index t (1 : Fin 3) * 512 + r.val) :
    ((cfg0.win 5).blk t).view.emb (ix3 u r e) = ix3 bb nn e := by
  obtain ⟨e00, e01, e02, e32, e40, e41, e42, e50, e51, e52, -⟩ := idx_facts t
  have hu : u.val = 0 := by omega
  funext a; apply Fin.ext
  match a with
  | ⟨0, _⟩ => show win0_5.index t (0 : Fin 3) * 1 + 1 * u.val = bb.val; omega
  | ⟨1, _⟩ => show win0_5.index t (1 : Fin 3) * 512 + 1 * r.val = nn.val; omega
  | ⟨2, _⟩ => show win0_5.index t (2 : Fin 3) * 1024 + 1 * e.val = e.val; omega

/-- A weight window's one block is the whole matrix. -/
theorem emb1_eq (t : Fin cfg0.N) (e j : Fin 1024) : ((cfg0.win 1).blk t).view.emb (ix2 e j) = ix2 e j := by
  obtain ⟨-, -, -, -, -, -, -, -, -, -, e10, e11, -⟩ := idx_facts t
  funext a; apply Fin.ext
  match a with
  | ⟨0, _⟩ => show win0_1.index t (0 : Fin 2) * 1024 + 1 * e.val = e.val; omega
  | ⟨1, _⟩ => show win0_1.index t (1 : Fin 2) * 1024 + 1 * j.val = j.val; omega
theorem emb2_eq (t : Fin cfg0.N) (e j : Fin 1024) : ((cfg0.win 2).blk t).view.emb (ix2 e j) = ix2 e j := by
  obtain ⟨-, -, -, -, -, -, -, -, -, -, -, -, e20, e21, -⟩ := idx_facts t
  funext a; apply Fin.ext
  match a with
  | ⟨0, _⟩ => show win0_2.index t (0 : Fin 2) * 1024 + 1 * e.val = e.val; omega
  | ⟨1, _⟩ => show win0_2.index t (1 : Fin 2) * 1024 + 1 * j.val = j.val; omega

/-- A weight matrix the kernel finds transposed, read back in the reference's orientation. -/
def tr (w : S1024x1024.Idx → EReal) : Arr2 1024 1024 := fun i => w (ix2 (i 1) (i 0))

/-- The feature block at point t is rows of the feature array. -/
theorem fblk_apply (c : Dev nD) (t : Fin cfg0.N) (r : Fin 512) (e : Fin 1024) (bb : Fin 16) (nn : Fin 2048)
    (hb : bb.val = win0_3.index t (0 : Fin 3)) (hn : nn.val = win0_3.index t (1 : Fin 3) * 512 + r.val) :
    iblk0 V c 0 t (ix3 (0 : Fin 1) r e) = V c main_arg0 (ix3 bb nn e) := by
  show V c main_arg0 (((cfg0.win 0).blk t).view.emb (ix3 (0 : Fin 1) r e)) = _
  rw [emb0_eq t 0 r e bb nn hb hn]
theorem wblk1_apply (c : Dev nD) (t : Fin cfg0.N) (e j : Fin 1024) : iblk0 V c 1 t (ix2 e j) = V c main_v1 (ix2 e j) := by
  show V c main_v1 (((cfg0.win 1).blk t).view.emb (ix2 e j)) = _
  rw [emb1_eq t e j]
theorem wblk2_apply (c : Dev nD) (t : Fin cfg0.N) (e j : Fin 1024) : iblk0 V c 2 t (ix2 e j) = V c main_v3 (ix2 e j) := by
  show V c main_v3 (((cfg0.win 2).blk t).view.emb (ix2 e j)) = _
  rw [emb2_eq t e j]

/-- The row of the output that block coordinate (u, r, ·) of point t lands on. -/
theorem row_of (t : Fin cfg0.N) (r : Fin 512) : ∃ (bb : Fin 16) (nn : Fin 2048),
    bb.val = win0_3.index t (0 : Fin 3) ∧ nn.val = win0_3.index t (1 : Fin 3) * 512 + r.val := by
  obtain ⟨-, -, -, -, -, -, -, -, -, -, -, -, -, -, h0, h1⟩ := idx_facts t
  exact ⟨⟨win0_3.index t (0 : Fin 3), by omega⟩, ⟨win0_3.index t (1 : Fin 3) * 512 + r.val, by have := r.isLt; omega⟩, rfl, rfl⟩

/-! ## What point t writes back -/

theorem flushed3_eq (c : Dev nD) (t : Fin cfg0.N) :
    (dat0 V c).flushed 3 t = ((cfg0.win 3).blk t).view.read (Elt Ideal) (xnA (B := 16) (N := 2048) (E := 1024) (V c main_arg0)) := by
  show (cfg0.win 3).cut (grid0.coords t) ((dat0 V c).after 3 t) = _
  rw [after0_3]
  unfold out0_3
  rw [View.canon_unit_zero hz3]
  simp only [View.ld_unit_zero (S := S1x512x1024) hz3]
  funext j
  obtain ⟨u, r, e, rfl⟩ : ∃ (u : Fin 1) (r : Fin 512) (e : Fin 1024), j = ix3 u r e := ⟨j 0, j 1, j 2, eq_ix3 j⟩
  obtain ⟨bb, nn, hb, hn⟩ := row_of t r
  show k0_pay2 (iblk0 V c 0 t) (ix3 u r e) = xnA (B := 16) (N := 2048) (E := 1024) (V c main_arg0) (((cfg0.win 3).blk t).view.emb (ix3 u r e))
  rw [Pay.pay2_apply, emb3_eq t u r e bb nn hb hn, xnA_apply]
  exact xn_congr _ _ 0 r bb nn (fun e' => fblk_apply V c t r e' bb nn hb hn) e

theorem flushed4_eq (c : Dev nD) (t : Fin cfg0.N) :
    (dat0 V c).flushed 4 t = ((cfg0.win 4).blk t).view.read (Elt Ideal)
      (projA (B := 16) (N := 2048) (E := 1024) (V c main_arg0) (tr (V c main_v1))) := by
  show (cfg0.win 4).cut (grid0.coords t) ((dat0 V c).after 4 t) = _
  rw [after0_4]
  unfold out0_4
  rw [View.canon_unit_zero hz3]
  simp only [View.ld_unit_zero (S := S1x512x1024) hz3, View.ld_unit_zero (S := S1024x1024) hz2]
  funext j
  obtain ⟨u, r, e, rfl⟩ : ∃ (u : Fin 1) (r : Fin 512) (e : Fin 1024), j = ix3 u r e := ⟨j 0, j 1, j 2, eq_ix3 j⟩
  obtain ⟨bb, nn, hb, hn⟩ := row_of t r
  show k0_pay3 (iblk0 V c 0 t) (iblk0 V c 1 t) (ix3 u r e) = projA (B := 16) (N := 2048) (E := 1024) (V c main_arg0) (tr (V c main_v1)) (((cfg0.win 4).blk t).view.emb (ix3 u r e))
  rw [Pay.pay3_apply, emb4_eq t u r e bb nn hb hn, projA_apply]
  unfold proj
  refine Finset.sum_congr rfl fun k _ => ?_
  rw [xn_congr _ _ 0 r bb nn (fun e' => fblk_apply V c t r e' bb nn hb hn) k, wblk1_apply]
  rfl

theorem flushed5_eq (c : Dev nD) (t : Fin cfg0.N) :
    (dat0 V c).flushed 5 t = ((cfg0.win 5).blk t).view.read (Elt Ideal)
      (projA (B := 16) (N := 2048) (E := 1024) (V c main_arg0) (tr (V c main_v3))) := by
  show (cfg0.win 5).cut (grid0.coords t) ((dat0 V c).after 5 t) = _
  rw [after0_5]
  unfold out0_5
  rw [View.canon_unit_zero hz3]
  simp only [View.ld_unit_zero (S := S1x512x1024) hz3, View.ld_unit_zero (S := S1024x1024) hz2]
  funext j
  obtain ⟨u, r, e, rfl⟩ : ∃ (u : Fin 1) (r : Fin 512) (e : Fin 1024), j = ix3 u r e := ⟨j 0, j 1, j 2, eq_ix3 j⟩
  obtain ⟨bb, nn, hb, hn⟩ := row_of t r
  show k0_pay4 (iblk0 V c 0 t) (iblk0 V c 2 t) (ix3 u r e) = projA (B := 16) (N := 2048) (E := 1024) (V c main_arg0) (tr (V c main_v3)) (((cfg0.win 5).blk t).view.emb (ix3 u r e))
  rw [Pay.pay4_apply, emb5_eq t u r e bb nn hb hn, projA_apply]
  unfold proj
  refine Finset.sum_congr rfl fun k _ => ?_
  rw [xn_congr _ _ 0 r bb nn (fun e' => fblk_apply V c t r e' bb nn hb hn) k, wblk2_apply]
  rfl

/-! ## The blocks tile each output array -/

theorem mem_blk3 (t : Fin cfg0.N) (i : S16x2048x1024.Idx) :
    i ∈ ((cfg0.win 3).blk t).view.set ↔ ∀ a : Fin 3, win0_3.index t a * S1x512x1024.size a ≤ (i a).val ∧ (i a).val < win0_3.index t a * S1x512x1024.size a + S1x512x1024.size a := by
  show i ∈ ((View.whole main_v4_0).slice (win0_3.rect t)).set ↔ _
  rw [View.set_slice_whole, Rect.mem_set_unit]
  exact Iff.rfl

/-- Every index of window 3's array lies in some point's block. -/
theorem cover3 (i : S16x2048x1024.Idx) : ∃ t : Fin cfg0.N, (cfg0.win 3).flush t = true ∧ i ∈ ((cfg0.win 3).blk t).view.set := by
  have hi0 : (i 0).val < 16 := (i 0).isLt
  have hi1 : (i 1).val < 2048 := (i 1).isLt
  have hi2 : (i 2).val < 1024 := (i 2).isLt
  obtain ⟨t, ht0, ht1⟩ := idx_onto ⟨(i 0).val, hi0⟩ ⟨(i 1).val / 512, by omega⟩
  obtain ⟨e00, e01, e02, e32, e40, e41, e42, e50, e51, e52, -⟩ := idx_facts t
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; dsimp only at ht0 ht1; omega
  | ⟨1, _⟩ => show win0_3.index t (1 : Fin 3) * 512 ≤ (i 1).val ∧ (i 1).val < win0_3.index t (1 : Fin 3) * 512 + 512; dsimp only at ht0 ht1; omega
  | ⟨2, _⟩ => show win0_3.index t (2 : Fin 3) * 1024 ≤ (i 2).val ∧ (i 2).val < win0_3.index t (2 : Fin 3) * 1024 + 1024; omega

theorem mem_blk4 (t : Fin cfg0.N) (i : S16x2048x1024.Idx) :
    i ∈ ((cfg0.win 4).blk t).view.set ↔ ∀ a : Fin 3, win0_4.index t a * S1x512x1024.size a ≤ (i a).val ∧ (i a).val < win0_4.index t a * S1x512x1024.size a + S1x512x1024.size a := by
  show i ∈ ((View.whole main_v4_1).slice (win0_4.rect t)).set ↔ _
  rw [View.set_slice_whole, Rect.mem_set_unit]
  exact Iff.rfl

/-- Every index of window 4's array lies in some point's block. -/
theorem cover4 (i : S16x2048x1024.Idx) : ∃ t : Fin cfg0.N, (cfg0.win 4).flush t = true ∧ i ∈ ((cfg0.win 4).blk t).view.set := by
  have hi0 : (i 0).val < 16 := (i 0).isLt
  have hi1 : (i 1).val < 2048 := (i 1).isLt
  have hi2 : (i 2).val < 1024 := (i 2).isLt
  obtain ⟨t, ht0, ht1⟩ := idx_onto ⟨(i 0).val, hi0⟩ ⟨(i 1).val / 512, by omega⟩
  obtain ⟨e00, e01, e02, e32, e40, e41, e42, e50, e51, e52, -⟩ := idx_facts t
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; dsimp only at ht0 ht1; omega
  | ⟨1, _⟩ => show win0_4.index t (1 : Fin 3) * 512 ≤ (i 1).val ∧ (i 1).val < win0_4.index t (1 : Fin 3) * 512 + 512; dsimp only at ht0 ht1; omega
  | ⟨2, _⟩ => show win0_4.index t (2 : Fin 3) * 1024 ≤ (i 2).val ∧ (i 2).val < win0_4.index t (2 : Fin 3) * 1024 + 1024; omega

theorem mem_blk5 (t : Fin cfg0.N) (i : S16x2048x1024.Idx) :
    i ∈ ((cfg0.win 5).blk t).view.set ↔ ∀ a : Fin 3, win0_5.index t a * S1x512x1024.size a ≤ (i a).val ∧ (i a).val < win0_5.index t a * S1x512x1024.size a + S1x512x1024.size a := by
  show i ∈ ((View.whole main_v4_2).slice (win0_5.rect t)).set ↔ _
  rw [View.set_slice_whole, Rect.mem_set_unit]
  exact Iff.rfl

/-- Every index of window 5's array lies in some point's block. -/
theorem cover5 (i : S16x2048x1024.Idx) : ∃ t : Fin cfg0.N, (cfg0.win 5).flush t = true ∧ i ∈ ((cfg0.win 5).blk t).view.set := by
  have hi0 : (i 0).val < 16 := (i 0).isLt
  have hi1 : (i 1).val < 2048 := (i 1).isLt
  have hi2 : (i 2).val < 1024 := (i 2).isLt
  obtain ⟨t, ht0, ht1⟩ := idx_onto ⟨(i 0).val, hi0⟩ ⟨(i 1).val / 512, by omega⟩
  obtain ⟨e00, e01, e02, e32, e40, e41, e42, e50, e51, e52, -⟩ := idx_facts t
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; dsimp only at ht0 ht1; omega
  | ⟨1, _⟩ => show win0_5.index t (1 : Fin 3) * 512 ≤ (i 1).val ∧ (i 1).val < win0_5.index t (1 : Fin 3) * 512 + 512; dsimp only at ht0 ht1; omega
  | ⟨2, _⟩ => show win0_5.index t (2 : Fin 3) * 1024 ≤ (i 2).val ∧ (i 2).val < win0_5.index t (2 : Fin 3) * 1024 + 1024; omega

/-! ## The three arrays after the region -/

theorem final3 (c : Dev nD) : (dat0 V c).arrAt 3 cfg0.N = xnA (B := 16) (N := 2048) (E := 1024) (V c main_arg0) :=
  (dat0 V c).arrAt_eq_of_cover 3 _ (fun t _ => flushed3_eq V c t) cover3
theorem final4 (c : Dev nD) : (dat0 V c).arrAt 4 cfg0.N = projA (B := 16) (N := 2048) (E := 1024) (V c main_arg0) (tr (V c main_v1)) :=
  (dat0 V c).arrAt_eq_of_cover 4 _ (fun t _ => flushed4_eq V c t) cover4
theorem final5 (c : Dev nD) : (dat0 V c).arrAt 5 cfg0.N = projA (B := 16) (N := 2048) (E := 1024) (V c main_arg0) (tr (V c main_v3)) :=
  (dat0 V c).arrAt_eq_of_cover 5 _ (fun t _ => flushed5_eq V c t) cover5

end Cert.KernelIdeal.Stage1

end
-- ==== Proof.Stage2Value.lean ====
/-
  The second kernel's output array, whole. Its grid is 16 batch entries by 4 blocks of 512 query rows; the output
  block (one row of 1024 lanes per batch entry) stays in place over the four blocks of a batch entry: the first
  block stores zeros and adds its partial sum, the next two add theirs, the last adds its own and multiplies by
  the reciprocal of the row count; only then is the block written back. So the output array ends holding, per
  batch entry and lane, the accumulated partial sums scaled — one function of the three arrays the kernel finds.
-/
import proofs.«108182_j58196806861037_2_alg».proof.Proof.Gen.KernelIdeal.Frame
import proofs.«108182_j58196806861037_2_alg».proof.Proof.Payloads
import Idealize.ShloMosaic.Lib.Pipeline.Value
import Idealize.ShloMosaic.Lib.Tactic

set_option maxRecDepth 16384

noncomputable section

namespace Cert.KernelIdeal.Stage2

open Cert.KernelIdeal Cert.KernelIdeal.Gen Idealize.ShloMosaic Idealize.ShloMosaic.TcCoe Idealize.ShloMosaic.Tactic
open Idealize.ShloMosaic.ValueIdx Idealize.SL.Sem Cert.Attn
open Idealize.ShloMosaic.Pipeline (Dat)
open scoped BigOperators

theorem hz3 : (![0, 0, 0] : Fin 3 → Nat) = fun _ => 0 := funext fun a => by fin_cases a <;> rfl

/-! ## What each control case leaves in the output's buffer -/

section Cases
variable {F : FTy → Type} [FloatOps F]

/-- First block of a batch entry: zeros stored, read back, and the block's partial sum added. -/
theorem out_A (c : Dev nD) (i : grid1.Coords) (a2 : Memref sig .tc .vmem S1x512x1024 .bf16) (h2 : a2.IsWhole) (a3 : Memref sig .tc .vmem S1x2048x1024 .bf16) (h3 : a3.IsWhole) (a4 : Memref sig .tc .vmem S1x2048x1024 .bf16) (h4 : a4.IsWhole) (a5 : Memref sig .tc .vmem S1x1x1024 .f32) (h5 : a5.IsWhole) (hc0 : cond1_0 i) (hc1 : ¬cond1_1 i)
    (x0 : Vec F S1x512x1024 .bf16) (x1 x2 : Vec F S1x2048x1024 .bf16) :
    out1_A_3 c i a2 h2 a3 h3 a4 h4 a5 h5 hc0 hc1 x0 x1 x2 = k1_pay3 x0 x1 x2 k1_pay2 := by
  unfold out1_A_3
  rw [View.read_writes_eq_canon _ _ _ (cover1_A_3 c i a2 h2 a3 h3 a4 h4 a5 h5 hc0 hc1 x0 x1 x2)]
  unfold kernelRun1_A
  dsimp only
  sl_unfold_words
  rw [View.canon_cons_unit_zero (S := S1x1x1024) hz3, View.readCov_unit_zero (S := S1x1x1024) _ hz3]
  simp only [View.readAt_eq_ld, h2.read_unread, h3.read_unread, h4.read_unread,
    View.ld_unit_zero (S := S1x512x1024) hz3, View.ld_unit_zero (S := S1x2048x1024) hz3]

/-- A middle block: the block's partial sum added to what the buffer held. -/
theorem out_B (c : Dev nD) (i : grid1.Coords) (a2 : Memref sig .tc .vmem S1x512x1024 .bf16) (h2 : a2.IsWhole) (a3 : Memref sig .tc .vmem S1x2048x1024 .bf16) (h3 : a3.IsWhole) (a4 : Memref sig .tc .vmem S1x2048x1024 .bf16) (h4 : a4.IsWhole) (a5 : Memref sig .tc .vmem S1x1x1024 .f32) (h5 : a5.IsWhole) (hc0 : ¬cond1_0 i) (hc1 : ¬cond1_1 i)
    (x0 : Vec F S1x512x1024 .bf16) (x1 x2 : Vec F S1x2048x1024 .bf16) (xo : Vec F S1x1x1024 .f32) :
    out1_B_3 c i a2 h2 a3 h3 a4 h4 a5 h5 hc0 hc1 x0 x1 x2 xo = k1_pay3 x0 x1 x2 xo := by
  unfold out1_B_3
  rw [View.read_writes_eq_canon _ _ _ (cover1_B_3 c i a2 h2 a3 h3 a4 h4 a5 h5 hc0 hc1 x0 x1 x2 xo)]
  unfold kernelRun1_B
  dsimp only
  rw [View.canon_unit_zero hz3]
  simp only [View.readAt_eq_ld, h2.read_unread, h3.read_unread, h4.read_unread, h5.read_unread,
    View.ld_unit_zero (S := S1x512x1024) hz3, View.ld_unit_zero (S := S1x2048x1024) hz3, View.ld_unit_zero (S := S1x1x1024) hz3]

/-- The last block: its partial sum added, then the whole multiplied by the reciprocal of the row count. -/
theorem out_C (c : Dev nD) (i : grid1.Coords) (a2 : Memref sig .tc .vmem S1x512x1024 .bf16) (h2 : a2.IsWhole) (a3 : Memref sig .tc .vmem S1x2048x1024 .bf16) (h3 : a3.IsWhole) (a4 : Memref sig .tc .vmem S1x2048x1024 .bf16) (h4 : a4.IsWhole) (a5 : Memref sig .tc .vmem S1x1x1024 .f32) (h5 : a5.IsWhole) (hc0 : ¬cond1_0 i) (hc1 : cond1_1 i)
    (x0 : Vec F S1x512x1024 .bf16) (x1 x2 : Vec F S1x2048x1024 .bf16) (xo : Vec F S1x1x1024 .f32) :
    out1_C_3 c i a2 h2 a3 h3 a4 h4 a5 h5 hc0 hc1 x0 x1 x2 xo = k1_pay1 (k1_pay3 x0 x1 x2 xo) := by
  unfold out1_C_3
  rw [View.read_writes_eq_canon _ _ _ (cover1_C_3 c i a2 h2 a3 h3 a4 h4 a5 h5 hc0 hc1 x0 x1 x2 xo)]
  unfold kernelRun1_C
  dsimp only
  sl_unfold_words
  rw [View.canon_cons_unit_zero (S := S1x1x1024) hz3, View.readCov_unit_zero (S := S1x1x1024) _ hz3]
  simp only [View.readAt_eq_ld, h2.read_unread, h3.read_unread, h4.read_unread, h5.read_unread,
    View.ld_unit_zero (S := S1x512x1024) hz3, View.ld_unit_zero (S := S1x2048x1024) hz3, View.ld_unit_zero (S := S1x1x1024) hz3]

end Cases

/-! ## The blocks at a point, as rows of the arrays -/

variable (V : (c : Dev nD) → (b : Ref sig .tc) → Buf (Elt Ideal) ((c : Thread nD τ).loc b))

/-- The printed index maps, decided over the grid: point t is (batch entry t / 4, query block t mod 4); the keys, the
    values and the output are indexed by the batch entry alone. -/
theorem idx_facts : ∀ t : Fin cfg1.N,
    win1_0.index t (0 : Fin 3) = t.val / 4 ∧ win1_0.index t (1 : Fin 3) = t.val % 4 ∧ win1_0.index t (2 : Fin 3) = 0
    ∧ win1_1.index t (0 : Fin 3) = t.val / 4 ∧ win1_1.index t (1 : Fin 3) = 0 ∧ win1_1.index t (2 : Fin 3) = 0
    ∧ win1_2.index t (0 : Fin 3) = t.val / 4 ∧ win1_2.index t (1 : Fin 3) = 0 ∧ win1_2.index t (2 : Fin 3) = 0
    ∧ win1_3.index t (0 : Fin 3) = t.val / 4 ∧ win1_3.index t (1 : Fin 3) = 0 ∧ win1_3.index t (2 : Fin 3) = 0 :=
  (by decide +kernel : ∀ t : Fin grid1.N, _)

theorem qblk_apply (c : Dev nD) (t : Fin cfg1.N) (r : Fin 512) (j : Fin 1024) (bb : Fin 16) (qq : Fin 4)
    (hb : bb.val = t.val / 4) (hq : qq.val = t.val % 4) :
    iblk1 V c 0 t (ix3 (0 : Fin 1) r j) = V c main_v4_1 (ix3 bb (qrow qq r) j) := by
  show V c main_v4_1 (((cfg1.win 0).blk t).view.emb (ix3 (0 : Fin 1) r j)) = _
  refine congrArg (V c main_v4_1) (funext fun a => Fin.ext ?_)
  obtain ⟨e00, e01, e02, -⟩ := idx_facts t
  match a with
  | ⟨0, _⟩ => show win1_0.index t (0 : Fin 3) * 1 + 1 * (0 : Fin 1).val = bb.val; omega
  | ⟨1, _⟩ => show win1_0.index t (1 : Fin 3) * 512 + 1 * r.val = 512 * qq.val + r.val; omega
  | ⟨2, _⟩ => show win1_0.index t (2 : Fin 3) * 1024 + 1 * j.val = j.val; omega

theorem kblk_apply (c : Dev nD) (t : Fin cfg1.N) (mm : Fin 2048) (j : Fin 1024) (bb : Fin 16) (hb : bb.val = t.val / 4) :
    iblk1 V c 1 t (ix3 (0 : Fin 1) mm j) = V c main_v4_2 (ix3 bb mm j) := by
  show V c main_v4_2 (((cfg1.win 1).blk t).view.emb (ix3 (0 : Fin 1) mm j)) = _
  refine congrArg (V c main_v4_2) (funext fun a => Fin.ext ?_)
  obtain ⟨-, -, -, e10, e11, e12, -⟩ := idx_facts t
  match a with
  | ⟨0, _⟩ => show win1_1.index t (0 : Fin 3) * 1 + 1 * (0 : Fin 1).val = bb.val; omega
  | ⟨1, _⟩ => show win1_1.index t (1 : Fin 3) * 2048 + 1 * mm.val = mm.val; omega
  | ⟨2, _⟩ => show win1_1.index t (2 : Fin 3) * 1024 + 1 * j.val = j.val; omega

theorem vblk_apply (c : Dev nD) (t : Fin cfg1.N) (mm : Fin 2048) (j : Fin 1024) (bb : Fin 16) (hb : bb.val = t.val / 4) :
    iblk1 V c 2 t (ix3 (0 : Fin 1) mm j) = V c main_v4_0 (ix3 bb mm j) := by
  show V c main_v4_0 (((cfg1.win 2).blk t).view.emb (ix3 (0 : Fin 1) mm j)) = _
  refine congrArg (V c main_v4_0) (funext fun a => Fin.ext ?_)
  obtain ⟨-, -, -, -, -, -, e20, e21, e22, -⟩ := idx_facts t
  match a with
  | ⟨0, _⟩ => show win1_2.index t (0 : Fin 3) * 1 + 1 * (0 : Fin 1).val = bb.val; omega
  | ⟨1, _⟩ => show win1_2.index t (1 : Fin 3) * 2048 + 1 * mm.val = mm.val; omega
  | ⟨2, _⟩ => show win1_2.index t (2 : Fin 3) * 1024 + 1 * j.val = j.val; omega

/-- The partial sum the body computes at point t is block t mod 4's partial sum of batch entry t / 4. -/
theorem tile_eq (c : Dev nD) (t : Fin cfg1.N) (e : Fin 1024) (bb : Fin 16) (qq : Fin 4)
    (hb : bb.val = t.val / 4) (hq : qq.val = t.val % 4) :
    (∑ r : Fin 512, otile (B := 1) (N := 512) (M := 2048) (E := 1024) (iblk1 V c 0 t) (iblk1 V c 1 t) (iblk1 V c 2 t) 0 r e)
      = part (V c main_v4_1) (V c main_v4_2) (V c main_v4_0) bb qq e := by
  unfold part
  exact Finset.sum_congr rfl fun r _ => otile_congr _ _ _ _ _ _ 0 r bb (qrow qq r)
    (fun j => qblk_apply V c t r j bb qq hb hq) (fun mm j => kblk_apply V c t mm j bb hb) (fun mm j => vblk_apply V c t mm j bb hb) e

/-! ## The accumulation over the grid -/

/-- After point n the output's buffer holds the accumulator of batch entry n / 4 after block n mod 4. -/
theorem outsAt_eq (c : Dev nD) : ∀ (n : ℕ) (h : n < cfg1.N) (bb : Fin 16) (hb : bb.val = n / 4) (u z : Fin 1) (e : Fin 1024),
    outsAt1 V c n h (ix3 u z e) = acc (part (V c main_v4_1) (V c main_v4_2) (V c main_v4_0) bb) (n % 4) e
  | 0, h, bb, hb, u, z, e => by
    have hq : ((0 : Fin 4)).val = (⟨0, h⟩ : Fin cfg1.N).val % 4 := rfl
    rw [outsAt1_A V c ⟨0, h⟩ rfl (by dsimp only; omega), out_A, Pay.k1_pay3_apply, Pay.k1_pay2_apply, tile_eq V c ⟨0, h⟩ e bb 0 hb hq]
    rfl
  | n + 1, h, bb, hb, u, z, e => by
    have hN : cfg1.N = 64 := N_1
    have hn : n < cfg1.N := Nat.lt_of_succ_lt h
    rcases (by omega : (n + 1) % 4 = 0 ∨ (n + 1) % 4 = 1 ∨ (n + 1) % 4 = 2 ∨ (n + 1) % 4 = 3) with hr | hr | hr | hr
    · have hq : ((0 : Fin 4)).val = (⟨n + 1, h⟩ : Fin cfg1.N).val % 4 := hr.symm
      rw [hr, outsAt1_A V c ⟨n + 1, h⟩ hr (by dsimp only; omega), out_A, Pay.k1_pay3_apply, Pay.k1_pay2_apply,
        tile_eq V c ⟨n + 1, h⟩ e bb 0 hb hq]
      rfl
    · have hq : ((1 : Fin 4)).val = (⟨n + 1, h⟩ : Fin cfg1.N).val % 4 := hr.symm
      have ih := outsAt_eq c n hn bb (by omega) u z e
      rw [show n % 4 = 0 by omega] at ih
      rw [hr, outsAt1_B V c ⟨n + 1, h⟩ (by dsimp only; omega) (by dsimp only; omega), out_B, Pay.k1_pay3_apply,
        tile_eq V c ⟨n + 1, h⟩ e bb 1 hb hq]
      exact congrArg (· + _) ih
    · have hq : ((2 : Fin 4)).val = (⟨n + 1, h⟩ : Fin cfg1.N).val % 4 := hr.symm
      have ih := outsAt_eq c n hn bb (by omega) u z e
      rw [show n % 4 = 1 by omega] at ih
      rw [hr, outsAt1_B V c ⟨n + 1, h⟩ (by dsimp only; omega) (by dsimp only; omega), out_B, Pay.k1_pay3_apply,
        tile_eq V c ⟨n + 1, h⟩ e bb 2 hb hq]
      exact congrArg (· + _) ih
    · have hq : ((3 : Fin 4)).val = (⟨n + 1, h⟩ : Fin cfg1.N).val % 4 := hr.symm
      have ih := outsAt_eq c n hn bb (by omega) u z e
      rw [show n % 4 = 2 by omega] at ih
      rw [hr, outsAt1_C V c ⟨n + 1, h⟩ (by dsimp only; omega) (by dsimp only; omega), out_C, Pay.k1_pay1_apply, Pay.k1_pay3_apply,
        tile_eq V c ⟨n + 1, h⟩ e bb 3 hb hq]
      exact congrArg (fun y => (y + _) * _) ih

/-! ## The array after the region -/

/-- What the output array ends holding: per batch entry and lane, the scaled accumulator after the last block. -/
def G (Q K X : Arr3 16 2048 1024) : S16x1x1024.Idx → EReal := fun i => acc (part Q K X (i 0)) 3 (i 2)

theorem flushed_eq (c : Dev nD) (t : Fin cfg1.N) (hf : (cfg1.win 3).flush t = true) :
    (dat1 V c).flushed 3 t = ((cfg1.win 3).blk t).view.read (Elt Ideal) (G (V c main_v4_1) (V c main_v4_2) (V c main_v4_0)) := by
  have hN : cfg1.N = 64 := N_1
  have h3 : t.val % 4 = 3 := (flush1_3 t).mp hf
  obtain ⟨-, -, -, -, -, -, -, -, -, e30, e31, e32⟩ := idx_facts t
  show (cfg1.win 3).cut (grid1.coords t) ((dat1 V c).after 3 t) = _
  rw [after1_3]
  funext j
  obtain ⟨u, z, e, rfl⟩ : ∃ (u z : Fin 1) (e : Fin 1024), j = ix3 u z e := ⟨j 0, j 1, j 2, eq_ix3 j⟩
  have ht : t.val < 64 := hN ▸ t.isLt
  have key := outsAt_eq V c t.val t.isLt ⟨t.val / 4, by omega⟩ rfl u z e
  rw [h3] at key
  show outsAt1 V c t.val t.isLt (ix3 u z e) = G (V c main_v4_1) (V c main_v4_2) (V c main_v4_0) (((cfg1.win 3).blk t).view.emb (ix3 u z e))
  rw [key]
  have hemb : ((cfg1.win 3).blk t).view.emb (ix3 u z e) = ix3 (⟨t.val / 4, by omega⟩ : Fin 16) (0 : Fin 1) e := by
    have hu : u.val = 0 := by omega
    have hz : z.val = 0 := by omega
    funext a; apply Fin.ext
    match a with
    | ⟨0, _⟩ => show win1_3.index t (0 : Fin 3) * 1 + 1 * u.val = t.val / 4; omega
    | ⟨1, _⟩ => show win1_3.index t (1 : Fin 3) * 1 + 1 * z.val = 0; omega
    | ⟨2, _⟩ => show win1_3.index t (2 : Fin 3) * 1024 + 1 * e.val = e.val; omega
  rw [hemb]
  rfl

theorem mem_blk (t : Fin cfg1.N) (i : S16x1x1024.Idx) :
    i ∈ ((cfg1.win 3).blk t).view.set ↔ ∀ a : Fin 3, win1_3.index t a * S1x1x1024.size a ≤ (i a).val ∧ (i a).val < win1_3.index t a * S1x1x1024.size a + S1x1x1024.size a := by
  show i ∈ ((View.whole main_v5).slice (win1_3.rect t)).set ↔ _
  rw [View.set_slice_whole, Rect.mem_set_unit]
  exact Iff.rfl

/-- Every index of the output array lies in the block written back after the last query block of its batch entry. -/
theorem cover (i : S16x1x1024.Idx) : ∃ t : Fin cfg1.N, (cfg1.win 3).flush t = true ∧ i ∈ ((cfg1.win 3).blk t).view.set := by
  have hN : cfg1.N = 64 := N_1
  have hi0 : (i 0).val < 16 := (i 0).isLt
  have hi1 : (i 1).val < 1 := (i 1).isLt
  have hi2 : (i 2).val < 1024 := (i 2).isLt
  let t : Fin cfg1.N := ⟨4 * (i 0).val + 3, by omega⟩
  have htv : t.val = 4 * (i 0).val + 3 := rfl
  obtain ⟨-, -, -, -, -, -, -, -, -, e30, e31, e32⟩ := idx_facts t
  refine ⟨t, (flush1_3 t).mpr (by omega), ?_⟩
  rw [mem_blk]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 1 ≤ (i 1).val ∧ (i 1).val < win1_3.index t (1 : Fin 3) * 1 + 1; omega
  | ⟨2, _⟩ => show win1_3.index t (2 : Fin 3) * 1024 ≤ (i 2).val ∧ (i 2).val < win1_3.index t (2 : Fin 3) * 1024 + 1024; omega

theorem final (c : Dev nD) : (dat1 V c).arrAt 3 cfg1.N = G (V c main_v4_1) (V c main_v4_2) (V c main_v4_0) :=
  (dat1 V c).arrAt_eq_of_cover 3 _ (fun t hf => flushed_eq V c t hf) cover

end Cert.KernelIdeal.Stage2

end
-- ==== Proof.KernelRun.lean ====
/-
  The kernel program's run, with its result named. The program is: two host stretches (transpose and narrow the two
  weight matrices; reshape the result), and between them the two kernels. Its result array ends holding what the
  last host stretch leaves; read back through the chain — the reshape of the second kernel's output array, which
  is one function of the first kernel's three output arrays, which are functions of the features and of the
  transposed weights — it is the specification's kernel-side result of the three argument arrays.
-/
import proofs.«108182_j58196806861037_2_alg».proof.Proof.Gen.KernelIdeal.Frame
import proofs.«108182_j58196806861037_2_alg».proof.Proof.Stage1Value
import proofs.«108182_j58196806861037_2_alg».proof.Proof.Stage2Value
import Idealize.ShloMosaic.Lib.Pipeline.Value
import Idealize.ShloMosaic.Lib.ValueLayout
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Run
variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result array at the last
    boundary's contents and the argument arrays as launched. -/
theorem run_named : θ_run defs (onTc (τ := τ) (main (F := F))) ⟨m, fun _ => 0, ρ⟩ (fun r => ∀ c : Dev nD,
      r.2.mem ((c.tc : Thread nD τ).loc main_v6) = W4 m ρ c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v6 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩)

end Run

/-! ## The result read back through the boundaries, at the ideal values -/

open Idealize.ShloMosaic.ValueIdx Cert.Attn

variable (m : (ℓ : Loc nD τ sig) → Buf (Elt Ideal) ℓ) (ρ : Dev nD → PrngReg)

/-- A [a, 1, b] array reshaped to [a, b] reads, at (i, j), the operand at (i, 0, j). -/
theorem shapeCast_a1b_ab_apply {α : Type} {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- The first kernel finds the features as launched. -/
theorem V1_arg0 (c : Dev nD) : V1 m ρ c main_arg0 = m ((c : Thread nD τ).loc main_arg0) :=
  calc V1 m ρ c main_arg0
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- The first kernel finds each weight matrix transposed (and narrowed, which changes nothing at the ideal values). -/
theorem V1_v1 (c : Dev nD) : Stage1.tr (V1 m ρ c main_v1) = m ((c : Thread nD τ).loc main_arg1) := by
  have e : (V1 m ρ c main_v1 : S1024x1024.Idx → EReal)
      = truncf .bf16 (transpose S1024x1024 [1, 0] (m ((c : Thread nD τ).loc main_arg1)) transposes_S1024x1024_S1024x1024_1_0 : FVec Ideal S1024x1024 .f32) bitsLt_bf16_f32 := by
    show StableHlo.after hostOps0 (W0 m ρ c) (Proc.devRef .tc main_v1) = _
    after_results
  funext i
  obtain ⟨j, k, rfl⟩ : ∃ (j k : Fin 1024), i = ix2 j k := ⟨i 0, i 1, eq_ix2 i⟩
  show V1 m ρ c main_v1 (ix2 k j) = _
  rw [e, truncf_apply, transpose_ix2_apply _ _ k j]

theorem V1_v3 (c : Dev nD) : Stage1.tr (V1 m ρ c main_v3) = m ((c : Thread nD τ).loc main_arg2) := by
  have e : (V1 m ρ c main_v3 : S1024x1024.Idx → EReal)
      = truncf .bf16 (transpose S1024x1024 [1, 0] (m ((c : Thread nD τ).loc main_arg2)) transposes_S1024x1024_S1024x1024_1_0 : FVec Ideal S1024x1024 .f32) bitsLt_bf16_f32 := by
    show StableHlo.after hostOps0 (W0 m ρ c) (Proc.devRef .tc main_v3) = _
    after_results
  funext i
  obtain ⟨j, k, rfl⟩ : ∃ (j k : Fin 1024), i = ix2 j k := ⟨i 0, i 1, eq_ix2 i⟩
  show V1 m ρ c main_v3 (ix2 k j) = _
  rw [e, truncf_apply, transpose_ix2_apply _ _ k j]

/-- The second kernel finds the first kernel's three output arrays. -/
theorem V2_x (c : Dev nD) : V2 m ρ c main_v4_0 = xnA (B := 16) (N := 2048) (E := 1024) (m ((c : Thread nD τ).loc main_arg0)) :=
  ((W2_arr m ρ c 3).trans (Stage1.final3 (V1 m ρ) c)).trans (by rw [V1_arg0])
theorem V2_q (c : Dev nD) : V2 m ρ c main_v4_1
    = projA (B := 16) (N := 2048) (E := 1024) (m ((c : Thread nD τ).loc main_arg0)) (m ((c : Thread nD τ).loc main_arg1)) :=
  ((W2_arr m ρ c 4).trans (Stage1.final4 (V1 m ρ) c)).trans (by rw [V1_arg0, V1_v1])
theorem V2_k (c : Dev nD) : V2 m ρ c main_v4_2
    = projA (B := 16) (N := 2048) (E := 1024) (m ((c : Thread nD τ).loc main_arg0)) (m ((c : Thread nD τ).loc main_arg2)) :=
  ((W2_arr m ρ c 5).trans (Stage1.final5 (V1 m ρ) c)).trans (by rw [V1_arg0, V1_v3])

/-- THE KERNEL PROGRAM'S RESULT: the specification's kernel-side result of the three argument arrays. -/
theorem result_eq (c : Dev nD) : W4 m ρ c (Proc.devRef .tc main_v6)
    = outKer (projA (B := 16) (N := 2048) (E := 1024) (m ((c : Thread nD τ).loc main_arg0)) (m ((c : Thread nD τ).loc main_arg1)))
        (projA (B := 16) (N := 2048) (E := 1024) (m ((c : Thread nD τ).loc main_arg0)) (m ((c : Thread nD τ).loc main_arg2)))
        (xnA (B := 16) (N := 2048) (E := 1024) (m ((c : Thread nD τ).loc main_arg0))) := by
  have e6 : (W4 m ρ c (Proc.devRef .tc main_v6) : S16x1024.Idx → EReal)
      = shapeCast S16x1024 (W3 m ρ c (Proc.devRef .tc main_v5) : S16x1x1024.Idx → EReal) shapeCasts_S16x1x1024_S16x1024 := by
    show StableHlo.after hostOps2 (W3 m ρ c) (Proc.devRef .tc main_v6) = _
    after_results
    rfl
  have e5 : (W3 m ρ c (Proc.devRef .tc main_v5) : S16x1x1024.Idx → EReal)
      = Stage2.G (V2 m ρ c main_v4_1) (V2 m ρ c main_v4_2) (V2 m ρ c main_v4_0) :=
    (W3_arr m ρ c 3).trans (Stage2.final (V2 m ρ) c)
  rw [e6, e5, V2_q, V2_k, V2_x]
  funext i
  obtain ⟨b, e, rfl⟩ : ∃ (b : Fin 16) (e : Fin 1024), i = ix2 b e := ⟨i 0, i 1, eq_ix2 i⟩
  rw [shapeCast_a1b_ab_apply _ _ b e]
  rfl

/-- The run, read: the result array at the specification's kernel-side result, the arguments unchanged. -/
theorem run : θ_run defs (onTc (τ := τ) (main (F := Ideal))) ⟨m, fun _ => 0, ρ⟩ (fun r => ∀ c : Dev nD,
      r.2.mem ((c.tc : Thread nD τ).loc main_v6)
        = outKer (projA (B := 16) (N := 2048) (E := 1024) (m ((c : Thread nD τ).loc main_arg0)) (m ((c : Thread nD τ).loc main_arg1)))
            (projA (B := 16) (N := 2048) (E := 1024) (m ((c : Thread nD τ).loc main_arg0)) (m ((c : Thread nD τ).loc main_arg2)))
            (xnA (B := 16) (N := 2048) (E := 1024) (m ((c : Thread nD τ).loc main_arg0)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (result_eq m ρ c), (h c).2⟩) (run_named (F := Ideal) m ρ)

end Cert.KernelIdeal.Whole

end
-- ==== Proof.RefIsSpec.lean ====
/-
  The reference's term, operation by operation, is the specification.

  Each lemma reads one operation of the reference at explicit coordinates and identifies it with the matching
  quantity of the specification: the clamped norm, the normalized feature, the two projections, the scaled score,
  the row maximum, the exponential, the row sum, the normalized weight, the weighted row, and the mean over the
  query rows. The reference adds each of its sums to a zero, which leaves the sum; it takes the maximum of the start
  value and a fold of max from that same start value, which is the fold, because the start value is below the fold.
-/
import proofs.«108182_j58196806861037_2_alg».proof.Proof.Gen.ReferenceIdeal.Read
import proofs.«108182_j58196806861037_2_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic
  Idealize.ShloMosaic.ValueIdx Cert.Attn
open scoped BigOperators

variable (f : Arr3 16 2048 1024) (wq wk : Arr2 1024 1024)

/-- The one coordinate of a unit axis. -/
abbrev z1 : Fin 1 := ⟨0, Nat.one_pos⟩

/-- The sum of squares of row (b, n). -/
theorem sumsq_at (b : Fin 16) (n : Fin 2048) :
    val_main_call0_v1 (F := Ideal) f (ix2 b n) = ∑ e : Fin 1024, f (ix3 b n e) * f (ix3 b n e) := by
  rw [val_main_call0_v1_apply]
  show Ideal.ofBits .f32 0x00000000#32 + _ = _
  rw [Ideal.ofBits_zero_f32, zero_add]
  refine Finset.sum_congr rfl fun k _ => ?_
  have hi : idx_main_call0_v1 (ix2 b n) k = ix3 b n k :=
    funext fun a => Fin.ext (by match a with | ⟨0, _⟩ => rfl | ⟨1, _⟩ => rfl | ⟨2, _⟩ => rfl)
  rw [hi]
  rfl

/-- The clamped norm of row (b, n). -/
theorem den_at (b : Fin 16) (n : Fin 2048) :
    val_main_v2 (F := Ideal) f (ix3 b n z1) = den f b n := by
  rw [val_main_v2_apply, val_main_v0_apply, val_main_call0_v2_apply, val_main_v1_apply]
  have hi : idx_main_call0_v2 (ix3 b n z1) = ix2 b n :=
    funext fun a => Fin.ext (by match a with | ⟨0, _⟩ => rfl | ⟨1, _⟩ => rfl)
  rw [hi, sumsq_at]
  rfl

/-- The normalized feature (b, n, e). -/
theorem xn_at (b : Fin 16) (n : Fin 2048) (e : Fin 1024) :
    val_main_v4 (F := Ideal) f (ix3 b n e) = xn f b n e := by
  rw [val_main_v4_apply, val_main_v3_apply]
  have hi : idx_main_v3 (ix3 b n e) = ix3 b n z1 :=
    funext fun a => Fin.ext (by match a with | ⟨0, _⟩ => rfl | ⟨1, _⟩ => rfl | ⟨2, _⟩ => rfl)
  rw [hi, den_at]
  rfl

/-- The first projection at (b, n, j). -/
theorem projq_at (b : Fin 16) (n : Fin 2048) (j : Fin 1024) :
    val_main_v5 (F := Ideal) f wq (ix3 b n j) = proj f wq b n j := by
  rw [val_main_v5_apply]
  refine Finset.sum_congr rfl fun k _ => ?_
  have hl : lidx_main_v5 (ix3 b n j) k = ix3 b n k :=
    funext fun a => Fin.ext (by match a with | ⟨0, _⟩ => rfl | ⟨1, _⟩ => rfl | ⟨2, _⟩ => rfl)
  have hr : ridx_main_v5 (ix3 b n j) k = ix2 j k :=
    funext fun a => Fin.ext (by match a with | ⟨0, _⟩ => rfl | ⟨1, _⟩ => rfl)
  rw [hl, hr, xn_at]

/-- The second projection at (b, n, j). -/
theorem projk_at (b : Fin 16) (n : Fin 2048) (j : Fin 1024) :
    val_main_v6 (F := Ideal) f wk (ix3 b n j) = proj f wk b n j := by
  rw [val_main_v6_apply]
  refine Finset.sum_congr rfl fun k _ => ?_
  have hl : lidx_main_v6 (ix3 b n j) k = ix3 b n k :=
    funext fun a => Fin.ext (by match a with | ⟨0, _⟩ => rfl | ⟨1, _⟩ => rfl | ⟨2, _⟩ => rfl)
  have hr : ridx_main_v6 (ix3 b n j) k = ix2 j k :=
    funext fun a => Fin.ext (by match a with | ⟨0, _⟩ => rfl | ⟨1, _⟩ => rfl)
  rw [hl, hr, xn_at]

/-- The scaled score of query row n against key row m. -/
theorem score_at (b : Fin 16) (n m : Fin 2048) :
    val_main_v9 (F := Ideal) f wq wk (ix3 b n m) = score (projA f wq) (projA f wk) b n m := by
  rw [val_main_v9_apply, val_main_v7_apply, val_main_v8_apply]
  show (∑ k : Fin 1024, _) * Ideal.ofBits .f32 0x3D000000#32 = _
  unfold score
  refine congrArg (· * _) (Finset.sum_congr rfl fun k _ => ?_)
  have hl : lidx_main_v7 (ix3 b n m) k = ix3 b n k :=
    funext fun a => Fin.ext (by match a with | ⟨0, _⟩ => rfl | ⟨1, _⟩ => rfl | ⟨2, _⟩ => rfl)
  have hr : ridx_main_v7 (ix3 b n m) k = ix3 b m k :=
    funext fun a => Fin.ext (by match a with | ⟨0, _⟩ => rfl | ⟨1, _⟩ => rfl | ⟨2, _⟩ => rfl)
  rw [hl, hr, projq_at, projk_at]
  rfl

/-- The fold of max over a query row's scores, from the start value. -/
theorem fold_at (b : Fin 16) (n : Fin 2048) :
    val_main_v10 (F := Ideal) f wq wk (ix2 b n) = rowmax (projA f wq) (projA f wk) b n := by
  have h : S16x2048x2048.Reduces [2] S16x2048 := by decide
  have hf : ∀ m : Fin 2048, val_main_v9 (F := Ideal) f wq wk (h.lift (ix2 b n) m)
      = score (projA f wq) (projA f wk) b n m := by
    intro m
    have hl : h.lift (ix2 b n) m = ix3 b n m :=
      funext fun a => Fin.ext (by match a with | ⟨0, _⟩ => rfl | ⟨1, _⟩ => rfl | ⟨2, _⟩ => rfl)
    rw [hl, score_at]
  unfold val_main_v10
  refine (Host.reduce_eq_fold_single FloatOps.maximumf _ _ reducesTo_S16x2048x2048_S16x2048_d2 h h_S_ _).trans ?_
  exact congrArg (fun g : Fin 2048 → EReal => Finset.fold max ninf g Finset.univ) (funext hf)

/-- The row maximum: the start value is below the fold, so their maximum is the fold. -/
theorem rowmax_at (b : Fin 16) (n : Fin 2048) :
    val_main_v12 (F := Ideal) f wq wk (ix2 b n) = rowmax (projA f wq) (projA f wk) b n := by
  rw [val_main_v12_apply, val_main_v11_apply, fold_at]
  show max (Ideal.ofBits .f32 0xFF800000#32) _ = _
  refine max_eq_right ?_
  unfold rowmax
  exact (Finset.le_fold_max _).mpr (Or.inl le_rfl)

/-- The exponential of a score less its row's maximum. -/
theorem pexp_at (b : Fin 16) (n m : Fin 2048) :
    val_main_v16 (F := Ideal) f wq wk (ix3 b n m) = pexp (projA f wq) (projA f wk) b n m := by
  rw [val_main_v16_apply, val_main_v15_apply, val_main_v14_apply, val_main_v13_apply]
  have h14 : idx_main_v14 (ix3 b n m) = ix3 b n z1 :=
    funext fun a => Fin.ext (by match a with | ⟨0, _⟩ => rfl | ⟨1, _⟩ => rfl | ⟨2, _⟩ => rfl)
  have h13 : idx_main_v13 (ix3 b n z1) = ix2 b n :=
    funext fun a => Fin.ext (by match a with | ⟨0, _⟩ => rfl | ⟨1, _⟩ => rfl)
  rw [h14, h13, rowmax_at, score_at]
  rfl

/-- The row sum of the exponentials. -/
theorem lsum_at (b : Fin 16) (n : Fin 2048) :
    val_main_v17 (F := Ideal) f wq wk (ix2 b n) = lsum (projA f wq) (projA f wk) b n := by
  rw [val_main_v17_apply]
  show Ideal.ofBits .f32 0x00000000#32 + _ = _
  rw [Ideal.ofBits_zero_f32, zero_add]
  unfold lsum
  refine Finset.sum_congr rfl fun k _ => ?_
  have hi : idx_main_v17 (ix2 b n) k = ix3 b n k :=
    funext fun a => Fin.ext (by match a with | ⟨0, _⟩ => rfl | ⟨1, _⟩ => rfl | ⟨2, _⟩ => rfl)
  rw [hi, pexp_at]

/-- The normalized weight of key row m in query row n. -/
theorem weight_at (b : Fin 16) (n m : Fin 2048) :
    val_main_v20 (F := Ideal) f wq wk (ix3 b n m)
      = Ideal.div (pexp (projA f wq) (projA f wk) b n m) (lsum (projA f wq) (projA f wk) b n) := by
  rw [val_main_v20_apply, val_main_v19_apply, val_main_v18_apply]
  have h19 : idx_main_v19 (ix3 b n m) = ix3 b n z1 :=
    funext fun a => Fin.ext (by match a with | ⟨0, _⟩ => rfl | ⟨1, _⟩ => rfl | ⟨2, _⟩ => rfl)
  have h18 : idx_main_v18 (ix3 b n z1) = ix2 b n :=
    funext fun a => Fin.ext (by match a with | ⟨0, _⟩ => rfl | ⟨1, _⟩ => rfl)
  rw [h19, h18, lsum_at, pexp_at]
  rfl

/-- The weighted row (b, n) at feature e. -/
theorem oref_at (b : Fin 16) (n : Fin 2048) (e : Fin 1024) :
    val_main_v21 (F := Ideal) f wq wk (ix3 b n e) = oref (projA f wq) (projA f wk) (xnA f) b n e := by
  rw [val_main_v21_apply]
  unfold oref
  refine Finset.sum_congr rfl fun k _ => ?_
  have hl : lidx_main_v21 (ix3 b n e) k = ix3 b n k :=
    funext fun a => Fin.ext (by match a with | ⟨0, _⟩ => rfl | ⟨1, _⟩ => rfl | ⟨2, _⟩ => rfl)
  have hr : ridx_main_v21 (ix3 b n e) k = ix3 b k e :=
    funext fun a => Fin.ext (by match a with | ⟨0, _⟩ => rfl | ⟨1, _⟩ => rfl | ⟨2, _⟩ => rfl)
  rw [hl, hr, weight_at, xn_at]
  rfl

/-- The sum of the weighted rows over the query rows. -/
theorem rowsum_at (b : Fin 16) (e : Fin 1024) :
    val_main_v22 (F := Ideal) f wq wk (ix2 b e)
      = ∑ n : Fin 2048, oref (projA f wq) (projA f wk) (xnA f) b n e := by
  rw [val_main_v22_apply]
  show Ideal.ofBits .f32 0x00000000#32 + _ = _
  rw [Ideal.ofBits_zero_f32, zero_add]
  refine Finset.sum_congr rfl fun k _ => ?_
  have hi : idx_main_v22 (ix2 b e) k = ix3 b k e :=
    funext fun a => Fin.ext (by match a with | ⟨0, _⟩ => rfl | ⟨1, _⟩ => rfl | ⟨2, _⟩ => rfl)
  rw [hi, oref_at]

/-- THE READING: the reference's result is the specification's mean over the query rows. -/
theorem ref_eq (f : Cert.Attn.Arr3 16 2048 1024) (wq wk : Cert.Attn.Arr2 1024 1024) :
    Cert.ReferenceIdeal.Read.val_main_v24 (F := Ideal) f wq wk
      = Cert.Attn.outRef (Cert.Attn.projA f wq) (Cert.Attn.projA f wk) (Cert.Attn.xnA f) := by
  funext i
  obtain ⟨b, e, rfl⟩ : ∃ (b : Fin 16) (e : Fin 1024), i = ix2 b e := ⟨i 0, i 1, eq_ix2 i⟩
  rw [val_main_v24_apply, val_main_v23_apply, rowsum_at]
  rfl

end Cert.ReferenceIdeal.RefValue

end
-- ==== Proof.Finite.lean ====
/-
  The precondition makes the three argument arrays real-valued.

  The precondition is the conjunction of three facts, one per argument array: every entry's absolute value is below
  the upper infinity. An extended real whose absolute value max(x, -x) is below the upper infinity is neither
  infinity (at either one the maximum is the upper infinity), so it is a real number.
-/
import proofs.«108182_j58196806861037_2_alg».proof.Defs
import proofs.«108182_j58196806861037_2_alg».proof.Proof.LibReals
import Idealize.ShloMosaic.Lib.ReduceAll
import Idealize.ShloMosaic.Lib.ValueIdx

noncomputable section

namespace Cert.Finite

open Idealize.ShloMosaic Idealize.SL.Sem Idealize.ShloMosaic.ValueIdx

/-- The scalar shape has one index. -/
instance : Subsingleton Cert.Pre_finite_inputs.S_.Idx := ⟨fun a b => funext fun d => d.elim0⟩

/-- The pattern the precondition compares against is the upper infinity. -/
theorem top_bits : Ideal.ofBits .f32 0x7F800000#32 = (⊤ : EReal) := by simp [Ideal.ofBits, Ideal.ieee]

/-- An extended real whose absolute value is below the upper infinity is a real number. -/
theorem real_of_abs_lt (x : EReal) (h : Ideal.cmp .olt (max x (-x)) (Ideal.ofBits .f32 0x7F800000#32) = 1#1) :
    ∃ r : ℝ, x = (r : EReal) := by
  rw [top_bits] at h
  induction x using EReal.rec with
  | bot => simp [Ideal.cmp] at h
  | top => simp [Ideal.cmp] at h
  | coe r => exact ⟨r, rfl⟩

/-- A scalar broadcast to any shape reads the scalar everywhere. -/
theorem bcast_scalar {α : Type} {t : Shape} (dims : Fin Cert.Pre_finite_inputs.S_.rank → Fin t.rank)
    (hb : Cert.Pre_finite_inputs.S_.BroadcastsInDim t dims) (y : Cert.Pre_finite_inputs.S_.Idx → α) (j : t.Idx) :
    broadcastInDim t dims hb y j = y ix0 := by
  unfold broadcastInDim
  exact congrArg y (Subsingleton.elim _ _)

/-- One array: if the reduction by "and" of "absolute value below the upper infinity" over every entry is 1,
    every entry is real. -/
theorem real_of_all {s : Shape} {axes : List (Fin s.rank)} (x : FVec Ideal s .f32)
    (dims : Fin Cert.Pre_finite_inputs.S_.rank → Fin s.rank) (hb : Cert.Pre_finite_inputs.S_.BroadcastsInDim s dims)
    (hr : s.ReducesTo axes Cert.Pre_finite_inputs.S_) (hu : 0 < Cert.Pre_finite_inputs.S_.numel)
    (e : Host.reduce IntOp.andi
        (cmpf .olt (Host.absf x) (broadcastInDim s dims hb (constant Cert.Pre_finite_inputs.S_ .f32 0x7F800000#32)))
        (constantI Cert.Pre_finite_inputs.S_ 1 1#1) hr hu ix0 = 1#1) :
    Cert.Reals.IsReal x := by
  intro i
  have hi := Host.reduce_andi_all _ _ hr hu ix0 e i
  refine real_of_abs_lt (x i) ?_
  have hc : broadcastInDim s dims hb (constant (F := Ideal) Cert.Pre_finite_inputs.S_ .f32 0x7F800000#32) i
      = Ideal.ofBits .f32 0x7F800000#32 := bcast_scalar dims hb _ i
  rw [← hc]
  exact hi

/-- THE READING of the precondition: on every device the three argument arrays are real-valued. -/
theorem real_args [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    Cert.Reals.IsReal (m ((c.tc : Thread Cert.KernelIdeal.nD Cert.KernelIdeal.τ).loc Cert.KernelIdeal.main_arg0))
      ∧ Cert.Reals.IsReal (m ((c.tc : Thread Cert.KernelIdeal.nD Cert.KernelIdeal.τ).loc Cert.KernelIdeal.main_arg1))
      ∧ Cert.Reals.IsReal (m ((c.tc : Thread Cert.KernelIdeal.nD Cert.KernelIdeal.τ).loc Cert.KernelIdeal.main_arg2)) := by
  have h0 := congrFun (h c) ix0
  dsimp only [Cert.Pre_finite_inputs.fn] at h0
  obtain ⟨h01, h2⟩ := IntOp.andi_eq_one.1 h0
  obtain ⟨hA, hB⟩ := IntOp.andi_eq_one.1 h01
  exact ⟨real_of_all _ _ _ _ _ hA, real_of_all _ _ _ _ _ hB, real_of_all _ _ _ _ _ h2⟩

end Cert.Finite

end
-- ==== Proof.lean ====
/-
  The proof of the claim: a two-kernel attention pooling against its plain reference, equal over the extended reals.

  Both programs normalize each feature row by its clamped Euclidean norm, project the normalized rows by two weight
  matrices, form the scaled scores of every query row against every key row of its batch entry, take the row-wise
  softmax, weight the normalized rows by it, and average over the 2048 query rows. They differ in three places.
  (1) The kernels divide the weighted sum by the softmax denominator once, where the reference divides each
  weight: equal because the exponentials and their sum are positive reals once the inputs are finite — this is
  where the precondition is used. (2) The second kernel accumulates the query rows in four blocks of 512 over a grid
  axis, starting from zero: a sum taken in blocks is the sum. (3) It multiplies by 2^-11 where the reference divides
  by 2048: a division by a nonzero real is the product with its reciprocal on every extended real.
  A change of float format is the identity at the ideal values, so the kernels' narrowing of their operands drops out.

  The frames of the two kernel programs are the generated ones; the reference's frame is its generated run with the
  result dropped. The idealization rewrote nothing, so it is preserved trivially.
-/
import proofs.«108182_j58196806861037_2_alg».proof.Defs
import proofs.«108182_j58196806861037_2_alg».proof.Proof.Gen.Kernel
import proofs.«108182_j58196806861037_2_alg».proof.Proof.Gen.Kernel.Frame
import proofs.«108182_j58196806861037_2_alg».proof.Proof.Gen.KernelIdeal
import proofs.«108182_j58196806861037_2_alg».proof.Proof.Gen.KernelIdeal.Frame
import proofs.«108182_j58196806861037_2_alg».proof.Proof.Gen.ReferenceIdeal
import proofs.«108182_j58196806861037_2_alg».proof.Proof.Gen.ReferenceIdeal.Run
import proofs.«108182_j58196806861037_2_alg».proof.Proof.Gen.ReferenceIdeal.Read
import proofs.«108182_j58196806861037_2_alg».proof.Proof.Gen.Pre_finite_inputs
import proofs.«108182_j58196806861037_2_alg».proof.Proof.Spec
import proofs.«108182_j58196806861037_2_alg».proof.Proof.KernelRun
import proofs.«108182_j58196806861037_2_alg».proof.Proof.RefIsSpec
import proofs.«108182_j58196806861037_2_alg».proof.Proof.Finite
import Idealize.ShloMosaic.Adequacy
import Idealize.ShloMosaic.Init

noncomputable section

namespace Cert.Proof

open Idealize.ShloMosaic Idealize.ShloMosaic.TcCoe Idealize.SL.Sem Cert.Attn

section Claims
variable [hKernel : Cert.Kernel.Facts] [hKernelIdeal : Cert.KernelIdeal.Facts] [hReferenceIdeal : Cert.ReferenceIdeal.Facts]
  [hPre : Cert.Pre_finite_inputs.Facts]

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- At the ideal values the kernel program's result array ends at the kernel-side result of the specification and the
    reference's at the reference-side result, of arguments that agree; on finite arguments the two are one array. -/
theorem algebraic : Cert.algebraic_KernelIdeal_ReferenceIdeal := by
  intro m ρ m' ρ' hpre hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2⟩ := Cert.Finite.real_args m hpre c
  rw [Cert.ReferenceIdeal.Read.val_main_v24_eq, (hagree c).1, (hagree c).2.1, (hagree c).2.2,
    Cert.ReferenceIdeal.RefValue.ref_eq]
  exact outRef_eq_outKer _ _ _ (projA_real _ _ h0 h1) (projA_real _ _ h0 h2) (xnA_real _ h0)

end Claims

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
